-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_arg1)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg1) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_v189) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x33x33x33 : Shape := ⟨4, ![3, 33, 33, 33]⟩
abbrev S8x3x1024x1024 : Shape := ⟨4, ![8, 3, 1024, 1024]⟩
abbrev S_ : Shape := ⟨0, ![]⟩

class Facts : Prop where
  bcast_S_S3x33x33x33 : S_.BroadcastsInDim S3x33x33x33 (![] : Fin 0 → Fin S3x33x33x33.rank)
  reducesTo_S3x33x33x33_S_d0_1_2_3 : S3x33x33x33.ReducesTo [0, 1, 2, 3] S_
  h_S_ : 0 < S_.numel
  bcast_S_S8x3x1024x1024 : S_.BroadcastsInDim S8x3x1024x1024 (![] : Fin 0 → Fin S8x3x1024x1024.rank)
  reducesTo_S8x3x1024x1024_S_d0_1_2_3 : S8x3x1024x1024.ReducesTo [0, 1, 2, 3] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S3x33x33x33 32) (main_arg1 : FVec F S3x33x33x33 .f32) (main_arg2 : FVec F S8x3x1024x1024 .f32) : IVec S_ 1 :=
  let main_v0 : FVec F S3x33x33x33 .f32 := Host.absf main_arg1
  let main_cst : FVec F S_ .f32 := constant S_ .f32 0x7F800000#32
  let main_v1 : FVec F S3x33x33x33 .f32 := broadcastInDim S3x33x33x33 ![] bcast_S_S3x33x33x33 main_cst
  let main_v2 : IVec S3x33x33x33 1 := cmpf .olt main_v0 main_v1
  let main_c : IVec S_ 1 := constantI S_ 1 1#1
  let main_v3 : IVec S_ 1 := (fun x v => Host.reduce IntOp.andi x v reducesTo_S3x33x33x33_S_d0_1_2_3 h_S_) main_v2 main_c
  let main_v4 : FVec F S8x3x1024x1024 .f32 := Host.absf main_arg2
  let main_cst_0 : FVec F S_ .f32 := constant S_ .f32 0x7F800000#32
  let main_v5 : FVec F S8x3x1024x1024 .f32 := broadcastInDim S8x3x1024x1024 ![] bcast_S_S8x3x1024x1024 main_cst_0
  let main_v6 : IVec S8x3x1024x1024 1 := cmpf .olt main_v4 main_v5
  let main_c_1 : IVec S_ 1 := constantI S_ 1 1#1
  let main_v7 : IVec S_ 1 := (fun x v => Host.reduce IntOp.andi x v reducesTo_S8x3x1024x1024_S_d0_1_2_3 h_S_) main_v6 main_c_1
  let main_v8 : IVec S_ 1 := andi main_v3 main_v7
  let main_cst_2 : FVec F S_ .f32 := constant S_ .f32 0x00000000#32
  let main_v9 : FVec F S8x3x1024x1024 .f32 := broadcastInDim S8x3x1024x1024 ![] bcast_S_S8x3x1024x1024 main_cst_2
  let main_v10 : IVec S8x3x1024x1024 1 := cmpf .oge main_arg2 main_v9
  let main_c_3 : IVec S_ 1 := constantI S_ 1 1#1
  let main_v11 : IVec S_ 1 := (fun x v => Host.reduce IntOp.andi x v reducesTo_S8x3x1024x1024_S_d0_1_2_3 h_S_) main_v10 main_c_3
  let main_v12 : IVec S_ 1 := andi main_v8 main_v11
  let main_cst_4 : FVec F S_ .f32 := constant S_ .f32 0x3F800000#32
  let main_v13 : FVec F S8x3x1024x1024 .f32 := broadcastInDim S8x3x1024x1024 ![] bcast_S_S8x3x1024x1024 main_cst_4
  let main_v14 : IVec S8x3x1024x1024 1 := cmpf .olt main_arg2 main_v13
  let main_c_5 : IVec S_ 1 := constantI S_ 1 1#1
  let main_v15 : IVec S_ 1 := (fun x v => Host.reduce IntOp.andi x v reducesTo_S8x3x1024x1024_S_d0_1_2_3 h_S_) main_v14 main_c_5
  fn_part1 (F := F) main_v12 main_v15
-- ==== Kernel.lean ====
abbrev S3x33x33x33 : Shape := ⟨4, ![3, 33, 33, 33]⟩
abbrev S8x3x1024x1024 : Shape := ⟨4, ![8, 3, 1024, 1024]⟩
abbrev S33x33x33x3 : Shape := ⟨4, ![33, 33, 33, 3]⟩
abbrev S1089x99 : Shape := ⟨2, ![1089, 99]⟩
abbrev S1x3x8x128 : Shape := ⟨4, ![1, 3, 8, 128]⟩
abbrev S1x1x8x128 : Shape := ⟨4, ![1, 1, 8, 128]⟩
abbrev S8x128 : Shape := ⟨2, ![8, 128]⟩
abbrev S1024 : Shape := ⟨1, ![1024]⟩
abbrev S1x33 : Shape := ⟨2, ![1, 33]⟩
abbrev S1024x1 : Shape := ⟨2, ![1024, 1]⟩
abbrev S1024x33 : Shape := ⟨2, ![1024, 33]⟩
abbrev S1024x33x1 : Shape := ⟨3, ![1024, 33, 1]⟩
abbrev S1024x1x33 : Shape := ⟨3, ![1024, 1, 33]⟩
abbrev S1024x33x33 : Shape := ⟨3, ![1024, 33, 33]⟩
abbrev S1024x1089 : Shape := ⟨2, ![1024, 1089]⟩
abbrev S1024x99 : Shape := ⟨2, ![1024, 99]⟩
abbrev S1024x33x3 : Shape := ⟨3, ![1024, 33, 3]⟩
abbrev S1024x3 : Shape := ⟨2, ![1024, 3]⟩

abbrev nBuf : Space → Nat
  | .hbm => 7
  | .vmem => 5
  | .smem => 0
  | _ => 0

abbrev bufTy : (tb : Table) → Fin (tcTables nBuf tb) → BufTy
  | .hbm, ⟨0, _⟩ => ⟨S3x33x33x33, .i32⟩
  | .hbm, ⟨1, _⟩ => ⟨S3x33x33x33, .f32⟩
  | .hbm, ⟨2, _⟩ => ⟨S8x3x1024x1024, .f32⟩
  | .hbm, ⟨3, _⟩ => ⟨S33x33x33x3, .f32⟩
  | .hbm, ⟨4, _⟩ => ⟨S1089x99, .f32⟩
  | .hbm, ⟨5, _⟩ => ⟨S1089x99, .bf16⟩
  | .hbm, ⟨6, _⟩ => ⟨S8x3x1024x1024, .f32⟩
  | .local _ .vmem, ⟨0, _⟩ => ⟨S1x3x8x128, .f32⟩
  | .local _ .vmem, ⟨1, _⟩ => ⟨S1x3x8x128, .f32⟩
  | .local _ .vmem, ⟨2, _⟩ => ⟨S1089x99, .bf16⟩
  | .local _ .vmem, ⟨3, _⟩ => ⟨S1x3x8x128, .f32⟩
  | .local _ .vmem, ⟨4, _⟩ => ⟨S1x3x8x128, .f32⟩
  | _, _ => ⟨S3x33x33x33, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 128, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

abbrev stage0_0 : Fin 2 → Memref sig .tc .vmem S1x3x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1089x99 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x3x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  transposes_S3x33x33x33_S33x33x33x3_1_2_3_0 : S3x33x33x33.Transposes [1, 2, 3, 0] S33x33x33x3
  shapeCasts_S33x33x33x3_S1089x99 : S33x33x33x3.ShapeCasts S1089x99
  bitsLt_bf16_f32 : FTy.bits .bf16 < FTy.bits .f32
  inb_S1x3x8x128_S1x1x8x128_0_0_0_0 : ∀ a, (![0, 0, 0, 0] : Fin 4 → Nat) a + S1x1x8x128.size a ≤ S1x3x8x128.size a
  h_S1x1x8x128 : 0 < S1x1x8x128.numel
  shapeCasts_S1x1x8x128_S8x128 : S1x1x8x128.ShapeCasts S8x128
  shapeCasts_S8x128_S1024 : S8x128.ShapeCasts S1024
  inb_S1x3x8x128_S1x1x8x128_0_1_0_0 : ∀ a, (![0, 1, 0, 0] : Fin 4 → Nat) a + S1x1x8x128.size a ≤ S1x3x8x128.size a
  inb_S1x3x8x128_S1x1x8x128_0_2_0_0 : ∀ a, (![0, 2, 0, 0] : Fin 4 → Nat) a + S1x1x8x128.size a ≤ S1x3x8x128.size a
  iota_S1x33_d1_w32 : S1x33.Iotas .tc 32 [1]
  shapeCasts_S1024_S1024x1 : S1024.ShapeCasts S1024x1
  broadcasts_S1x33_S1024x33 : S1x33.Broadcasts S1024x33
  broadcasts_S1024x1_S1024x33 : S1024x1.Broadcasts S1024x33
  shapeCasts_S1024x1_S1024x1 : S1024x1.ShapeCasts S1024x1
  shapeCasts_S1024x33_S1024x33x1 : S1024x33.ShapeCasts S1024x33x1
  shapeCasts_S1024x33_S1024x1x33 : S1024x33.ShapeCasts S1024x1x33
  broadcasts_S1024x33x1_S1024x33x33 : S1024x33x1.Broadcasts S1024x33x33
  broadcasts_S1024x1x33_S1024x33x33 : S1024x1x33.Broadcasts S1024x33x33
  shapeCasts_S1024x33x33_S1024x1089 : S1024x33x33.ShapeCasts S1024x1089
  inb_S1089x99_S1089x99_0_0 : ∀ a, (![0, 0] : Fin 2 → Nat) a + S1089x99.size a ≤ S1089x99.size a
  h_S1089x99 : 0 < S1089x99.numel
  shapeCasts_S1089x99_S1089x99 : S1089x99.ShapeCasts S1089x99
  shapeCasts_S1024x99_S1024x33x3 : S1024x99.ShapeCasts S1024x33x3
  broadcasts_S1024x33x1_S1024x33x3 : S1024x33x1.Broadcasts S1024x33x3
  reduces_S1024x33x3_S1024x3 : S1024x33x3.Reduces [1] S1024x3
  slices_S1024x3_o0_0_S1024x1 : S1024x3.Slices ![0, 0] S1024x1
  shapeCasts_S1024x1_S1024 : S1024x1.ShapeCasts S1024
  shapeCasts_S1024_S8x128 : S1024.ShapeCasts S8x128
  shapeCasts_S8x128_S1x1x8x128 : S8x128.ShapeCasts S1x1x8x128
  slices_S1024x3_o0_1_S1024x1 : S1024x3.Slices ![0, 1] S1024x1
  slices_S1024x3_o0_2_S1024x1 : S1024x3.Slices ![0, 2] S1024x1
  dot_S1024x1089_S1089x99_S1024x99_1_0_0_1_n_n_wf : DotDims.WF S1024x1089 S1089x99 S1024x99 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x8x128.size a ≤ S8x3x1024x1024.size a
  hwx0_0 : ∀ i : grid0.Coords, EltTy.bits .f32 = 32 ∨ (Rect.block (s := S8x3x1024x1024) S1x3x8x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1089x99.size a ≤ S1089x99.size a
  hwx0_1 : ∀ i : grid0.Coords, EltTy.bits .bf16 = 32 ∨ (Rect.block (s := S1089x99) S1089x99.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x8x128.size a ≤ S8x3x1024x1024.size a
  hwx0_2 : ∀ i : grid0.Coords, EltTy.bits .f32 = 32 ∨ (Rect.block (s := S8x3x1024x1024) S1x3x8x128.size (cc0_transform_2 i) (hinb0_2 i)).WholeWords (EltTy.packing .f32)

variable [Facts₀]

def dot_S1024x1089_S1089x99_S1024x99_1_0_0_1_n_n : DotDims S1024x1089 S1089x99 S1024x99 where
  lhsContracting := [1]
  rhsContracting := [0]
  lhsNonContracting := [0]
  rhsNonContracting := [1]
  lhsBatch := []
  rhsBatch := []
  wf := dot_S1024x1089_S1089x99_S1024x99_1_0_0_1_n_n_wf

abbrev win0_0 : Pipeline.Window sig grid0 :=
  Pipeline.Window.ofSpec (Memref.whole main_arg2) S1x3x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1089x99.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S3x33x33x33 : Shape := ⟨4, ![3, 33, 33, 33]⟩
abbrev S8x3x1024x1024 : Shape := ⟨4, ![8, 3, 1024, 1024]⟩
abbrev S8x1x1024x1024 : Shape := ⟨4, ![8, 1, 1024, 1024]⟩
abbrev S8x1024x1024 : Shape := ⟨3, ![8, 1024, 1024]⟩
abbrev S_ : Shape := ⟨0, ![]⟩
abbrev S3x35937 : Shape := ⟨2, ![3, 35937]⟩
abbrev S8x1024x1024x1 : Shape := ⟨4, ![8, 1024, 1024, 1]⟩
abbrev S3x8x1024x1024 : Shape := ⟨4, ![3, 8, 1024, 1024]⟩

abbrev nBuf : Space → Nat
  | .hbm => 238
  | .vmem => 0
  | .smem => 0
  | _ => 0

abbrev hbmTy0_0 (i : Nat) : BufTy := match i % 128 with
  | 0 => ⟨S3x33x33x33, .i32⟩
  | 1 => ⟨S3x33x33x33, .f32⟩
  | 2 => ⟨S8x3x1024x1024, .f32⟩
  | 3 => ⟨S8x1x1024x1024, .f32⟩
  | 4 => ⟨S8x1024x1024, .f32⟩
  | 5 => ⟨S8x1x1024x1024, .f32⟩
  | 6 => ⟨S8x1024x1024, .f32⟩
  | 7 => ⟨S8x1x1024x1024, .f32⟩
  | 8 => ⟨S8x1024x1024, .f32⟩
  | 9 => ⟨S_, .f32⟩
  | 10 => ⟨S8x1024x1024, .f32⟩
  | 11 => ⟨S8x1024x1024, .f32⟩
  | 12 => ⟨S8x1024x1024, .f32⟩
  | 13 => ⟨S8x1024x1024, .i32⟩
  | 14 => ⟨S_, .f32⟩
  | 15 => ⟨S8x1024x1024, .f32⟩
  | 16 => ⟨S8x1024x1024, .f32⟩
  | 17 => ⟨S8x1024x1024, .f32⟩
  | 18 => ⟨S8x1024x1024, .i32⟩
  | 19 => ⟨S_, .f32⟩
  | 20 => ⟨S8x1024x1024, .f32⟩
  | 21 => ⟨S8x1024x1024, .f32⟩
  | 22 => ⟨S8x1024x1024, .f32⟩
  | 23 => ⟨S8x1024x1024, .i32⟩
  | 24 => ⟨S_, .f32⟩
  | 25 => ⟨S8x1024x1024, .f32⟩
  | 26 => ⟨S8x1024x1024, .f32⟩
  | 27 => ⟨S8x1024x1024, .f32⟩
  | 28 => ⟨S8x1024x1024, .f32⟩
  | 29 => ⟨S_, .f32⟩
  | 30 => ⟨S8x1024x1024, .f32⟩
  | 31 => ⟨S8x1024x1024, .f32⟩
  | 32 => ⟨S8x1024x1024, .f32⟩
  | 33 => ⟨S8x1024x1024, .f32⟩
  | 34 => ⟨S_, .f32⟩
  | 35 => ⟨S8x1024x1024, .f32⟩
  | 36 => ⟨S8x1024x1024, .f32⟩
  | 37 => ⟨S8x1024x1024, .f32⟩
  | 38 => ⟨S8x1024x1024, .f32⟩
  | 39 => ⟨S_, .i32⟩
  | 40 => ⟨S8x1024x1024, .i32⟩
  | 41 => ⟨S8x1024x1024, .i32⟩
  | 42 => ⟨S8x1024x1024, .i32⟩
  | 43 => ⟨S_, .i32⟩
  | 44 => ⟨S8x1024x1024, .i32⟩
  | 45 => ⟨S8x1024x1024, .i32⟩
  | 46 => ⟨S_, .i32⟩
  | 47 => ⟨S8x1024x1024, .i32⟩
  | 48 => ⟨S8x1024x1024, .i32⟩
  | 49 => ⟨S8x1024x1024, .i32⟩
  | 50 => ⟨S3x35937, .f32⟩
  | 51 => ⟨S_, .f32⟩
  | 52 => ⟨S8x1024x1024, .f32⟩
  | 53 => ⟨S8x1024x1024, .f32⟩
  | 54 => ⟨S_, .f32⟩
  | 55 => ⟨S8x1024x1024, .f32⟩
  | 56 => ⟨S8x1024x1024, .f32⟩
  | 57 => ⟨S8x1024x1024, .f32⟩
  | 58 => ⟨S_, .f32⟩
  | 59 => ⟨S8x1024x1024, .f32⟩
  | 60 => ⟨S8x1024x1024, .f32⟩
  | 61 => ⟨S8x1024x1024, .f32⟩
  | 62 => ⟨S_, .f32⟩
  | 63 => ⟨S8x1024x1024, .f32⟩
  | 64 => ⟨S8x1024x1024, .f32⟩
  | 65 => ⟨S8x1024x1024, .f32⟩
  | 66 => ⟨S_, .f32⟩
  | 67 => ⟨S8x1024x1024, .f32⟩
  | 68 => ⟨S8x1024x1024, .f32⟩
  | 69 => ⟨S8x1024x1024, .f32⟩
  | 70 => ⟨S_, .f32⟩
  | 71 => ⟨S8x1024x1024, .f32⟩
  | 72 => ⟨S8x1024x1024, .f32⟩
  | 73 => ⟨S8x1024x1024, .f32⟩
  | 74 => ⟨S_, .f32⟩
  | 75 => ⟨S8x1024x1024, .f32⟩
  | 76 => ⟨S8x1024x1024, .f32⟩
  | 77 => ⟨S8x1024x1024, .f32⟩
  | 78 => ⟨S8x1024x1024, .f32⟩
  | 79 => ⟨S_, .f32⟩
  | 80 => ⟨S8x1024x1024, .f32⟩
  | 81 => ⟨S8x1024x1024, .f32⟩
  | 82 => ⟨S8x1024x1024, .f32⟩
  | 83 => ⟨S_, .f32⟩
  | 84 => ⟨S8x1024x1024, .f32⟩
  | 85 => ⟨S8x1024x1024, .f32⟩
  | 86 => ⟨S_, .f32⟩
  | 87 => ⟨S8x1024x1024, .f32⟩
  | 88 => ⟨S8x1024x1024, .f32⟩
  | 89 => ⟨S8x1024x1024, .f32⟩
  | 90 => ⟨S8x1024x1024, .f32⟩
  | 91 => ⟨S_, .f32⟩
  | 92 => ⟨S8x1024x1024, .f32⟩
  | 93 => ⟨S8x1024x1024, .f32⟩
  | 94 => ⟨S8x1024x1024, .f32⟩
  | 95 => ⟨S8x1024x1024, .f32⟩
  | 96 => ⟨S_, .f32⟩
  | 97 => ⟨S8x1024x1024, .f32⟩
  | 98 => ⟨S8x1024x1024, .f32⟩
  | 99 => ⟨S8x1024x1024, .f32⟩
  | 100 => ⟨S8x1024x1024, .f32⟩
  | 101 => ⟨S8x1024x1024, .f32⟩
  | 102 => ⟨S8x1024x1024, .f32⟩
  | 103 => ⟨S_, .i32⟩
  | 104 => ⟨S8x1024x1024, .i32⟩
  | 105 => ⟨S8x1024x1024, .i32⟩
  | 106 => ⟨S_, .i32⟩
  | 107 => ⟨S8x1024x1024, .i32⟩
  | 108 => ⟨S8x1024x1024, .i1⟩
  | 109 => ⟨S_, .i32⟩
  | 110 => ⟨S8x1024x1024, .i32⟩
  | 111 => ⟨S8x1024x1024, .i32⟩
  | 112 => ⟨S8x1024x1024, .i32⟩
  | 113 => ⟨S8x1024x1024x1, .i32⟩
  | 114 => ⟨S3x8x1024x1024, .f32⟩
  | 115 => ⟨S8x3x1024x1024, .f32⟩
  | 116 => ⟨S8x1x1024x1024, .f32⟩
  | 117 => ⟨S8x3x1024x1024, .f32⟩
  | 118 => ⟨S8x3x1024x1024, .f32⟩
  | 119 => ⟨S_, .i32⟩
  | 120 => ⟨S8x1024x1024, .i32⟩
  | 121 => ⟨S8x1024x1024, .i32⟩
  | 122 => ⟨S_, .i32⟩
  | 123 => ⟨S8x1024x1024, .i32⟩
  | 124 => ⟨S8x1024x1024, .i1⟩
  | 125 => ⟨S_, .i32⟩
  | 126 => ⟨S8x1024x1024, .i32⟩
  | 127 => ⟨S8x1024x1024, .i32⟩
  | _ => ⟨S3x33x33x33, .i32⟩

abbrev hbmTy0_1 (i : Nat) : BufTy := match i % 128 with
  | 0 => ⟨S8x1024x1024, .i32⟩
  | 1 => ⟨S8x1024x1024x1, .i32⟩
  | 2 => ⟨S3x8x1024x1024, .f32⟩
  | 3 => ⟨S8x3x1024x1024, .f32⟩
  | 4 => ⟨S8x1x1024x1024, .f32⟩
  | 5 => ⟨S8x3x1024x1024, .f32⟩
  | 6 => ⟨S8x3x1024x1024, .f32⟩
  | 7 => ⟨S8x3x1024x1024, .f32⟩
  | 8 => ⟨S_, .i32⟩
  | 9 => ⟨S8x1024x1024, .i32⟩
  | 10 => ⟨S8x1024x1024, .i32⟩
  | 11 => ⟨S_, .i32⟩
  | 12 => ⟨S8x1024x1024, .i32⟩
  | 13 => ⟨S8x1024x1024, .i1⟩
  | 14 => ⟨S_, .i32⟩
  | 15 => ⟨S8x1024x1024, .i32⟩
  | 16 => ⟨S8x1024x1024, .i32⟩
  | 17 => ⟨S8x1024x1024, .i32⟩
  | 18 => ⟨S8x1024x1024x1, .i32⟩
  | 19 => ⟨S3x8x1024x1024, .f32⟩
  | 20 => ⟨S8x3x1024x1024, .f32⟩
  | 21 => ⟨S8x1x1024x1024, .f32⟩
  | 22 => ⟨S8x3x1024x1024, .f32⟩
  | 23 => ⟨S8x3x1024x1024, .f32⟩
  | 24 => ⟨S8x3x1024x1024, .f32⟩
  | 25 => ⟨S_, .i32⟩
  | 26 => ⟨S8x1024x1024, .i32⟩
  | 27 => ⟨S8x1024x1024, .i32⟩
  | 28 => ⟨S_, .i32⟩
  | 29 => ⟨S8x1024x1024, .i32⟩
  | 30 => ⟨S8x1024x1024, .i1⟩
  | 31 => ⟨S_, .i32⟩
  | 32 => ⟨S8x1024x1024, .i32⟩
  | 33 => ⟨S8x1024x1024, .i32⟩
  | 34 => ⟨S8x1024x1024, .i32⟩
  | 35 => ⟨S8x1024x1024x1, .i32⟩
  | 36 => ⟨S3x8x1024x1024, .f32⟩
  | 37 => ⟨S8x3x1024x1024, .f32⟩
  | 38 => ⟨S8x1x1024x1024, .f32⟩
  | 39 => ⟨S8x3x1024x1024, .f32⟩
  | 40 => ⟨S8x3x1024x1024, .f32⟩
  | 41 => ⟨S8x3x1024x1024, .f32⟩
  | 42 => ⟨S_, .i32⟩
  | 43 => ⟨S8x1024x1024, .i32⟩
  | 44 => ⟨S8x1024x1024, .i32⟩
  | 45 => ⟨S_, .i32⟩
  | 46 => ⟨S8x1024x1024, .i32⟩
  | 47 => ⟨S8x1024x1024, .i1⟩
  | 48 => ⟨S_, .i32⟩
  | 49 => ⟨S8x1024x1024, .i32⟩
  | 50 => ⟨S8x1024x1024, .i32⟩
  | 51 => ⟨S8x1024x1024, .i32⟩
  | 52 => ⟨S8x1024x1024x1, .i32⟩
  | 53 => ⟨S3x8x1024x1024, .f32⟩
  | 54 => ⟨S8x3x1024x1024, .f32⟩
  | 55 => ⟨S8x1x1024x1024, .f32⟩
  | 56 => ⟨S8x3x1024x1024, .f32⟩
  | 57 => ⟨S8x3x1024x1024, .f32⟩
  | 58 => ⟨S8x3x1024x1024, .f32⟩
  | 59 => ⟨S_, .i32⟩
  | 60 => ⟨S8x1024x1024, .i32⟩
  | 61 => ⟨S8x1024x1024, .i32⟩
  | 62 => ⟨S_, .i32⟩
  | 63 => ⟨S8x1024x1024, .i32⟩
  | 64 => ⟨S8x1024x1024, .i1⟩
  | 65 => ⟨S_, .i32⟩
  | 66 => ⟨S8x1024x1024, .i32⟩
  | 67 => ⟨S8x1024x1024, .i32⟩
  | 68 => ⟨S8x1024x1024, .i32⟩
  | 69 => ⟨S8x1024x1024x1, .i32⟩
  | 70 => ⟨S3x8x1024x1024, .f32⟩
  | 71 => ⟨S8x3x1024x1024, .f32⟩
  | 72 => ⟨S8x1x1024x1024, .f32⟩
  | 73 => ⟨S8x3x1024x1024, .f32⟩
  | 74 => ⟨S8x3x1024x1024, .f32⟩
  | 75 => ⟨S8x3x1024x1024, .f32⟩
  | 76 => ⟨S_, .i32⟩
  | 77 => ⟨S8x1024x1024, .i32⟩
  | 78 => ⟨S8x1024x1024, .i32⟩
  | 79 => ⟨S_, .i32⟩
  | 80 => ⟨S8x1024x1024, .i32⟩
  | 81 => ⟨S8x1024x1024, .i1⟩
  | 82 => ⟨S_, .i32⟩
  | 83 => ⟨S8x1024x1024, .i32⟩
  | 84 => ⟨S8x1024x1024, .i32⟩
  | 85 => ⟨S8x1024x1024, .i32⟩
  | 86 => ⟨S8x1024x1024x1, .i32⟩
  | 87 => ⟨S3x8x1024x1024, .f32⟩
  | 88 => ⟨S8x3x1024x1024, .f32⟩
  | 89 => ⟨S8x1x1024x1024, .f32⟩
  | 90 => ⟨S8x3x1024x1024, .f32⟩
  | 91 => ⟨S8x3x1024x1024, .f32⟩
  | 92 => ⟨S8x3x1024x1024, .f32⟩
  | 93 => ⟨S_, .i32⟩
  | 94 => ⟨S8x1024x1024, .i32⟩
  | 95 => ⟨S8x1024x1024, .i32⟩
  | 96 => ⟨S_, .i32⟩
  | 97 => ⟨S8x1024x1024, .i32⟩
  | 98 => ⟨S8x1024x1024, .i1⟩
  | 99 => ⟨S_, .i32⟩
  | 100 => ⟨S8x1024x1024, .i32⟩
  | 101 => ⟨S8x1024x1024, .i32⟩
  | 102 => ⟨S8x1024x1024, .i32⟩
  | 103 => ⟨S8x1024x1024x1, .i32⟩
  | 104 => ⟨S3x8x1024x1024, .f32⟩
  | 105 => ⟨S8x3x1024x1024, .f32⟩
  | 106 => ⟨S8x1x1024x1024, .f32⟩
  | 107 => ⟨S8x3x1024x1024, .f32⟩
  | 108 => ⟨S8x3x1024x1024, .f32⟩
  | 109 => ⟨S8x3x1024x1024, .f32⟩
  | _ => ⟨S3x33x33x33, .i32⟩

abbrev hbmTy (i : Nat) : BufTy := match i / 128 with
  | 0 => hbmTy0_0 i
  | 1 => hbmTy0_1 i
  | _ => ⟨S3x33x33x33, .i32⟩

abbrev bufTy : (tb : Table) → Fin (tcTables nBuf tb) → BufTy
  | .hbm, ⟨i, _⟩ => hbmTy i
  | _, _ => ⟨S3x33x33x33, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_5 : Ref sig .tc := ⟨.hbm, 43, rfl⟩
abbrev main_v33 : Ref sig .tc := ⟨.hbm, 44, rfl⟩
abbrev main_v34 : Ref sig .tc := ⟨.hbm, 45, rfl⟩
abbrev main_c_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_13 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_14 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_15 : Ref sig .tc := ⟨.hbm, 83, rfl⟩
abbrev main_v63 : Ref sig .tc := ⟨.hbm, 84, rfl⟩
abbrev main_v64 : Ref sig .tc := ⟨.hbm, 85, rfl⟩
abbrev main_cst_16 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_17 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_18 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_c_19 : Ref sig .tc := ⟨.hbm, 103, rfl⟩
abbrev main_v79 : Ref sig .tc := ⟨.hbm, 104, rfl⟩
abbrev main_v80 : Ref sig .tc := ⟨.hbm, 105, rfl⟩
abbrev main_c_20 : Ref sig .tc := ⟨.hbm, 106, rfl⟩
abbrev main_v81 : Ref sig .tc := ⟨.hbm, 107, rfl⟩
abbrev main_v82 : Ref sig .tc := ⟨.hbm, 108, rfl⟩
abbrev main_c_21 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_c_22 : Ref sig .tc := ⟨.hbm, 119, rfl⟩
abbrev main_v92 : Ref sig .tc := ⟨.hbm, 120, rfl⟩
abbrev main_v93 : Ref sig .tc := ⟨.hbm, 121, rfl⟩
abbrev main_c_23 : Ref sig .tc := ⟨.hbm, 122, rfl⟩
abbrev main_v94 : Ref sig .tc := ⟨.hbm, 123, rfl⟩
abbrev main_v95 : Ref sig .tc := ⟨.hbm, 124, rfl⟩
abbrev main_c_24 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_c_25 : Ref sig .tc := ⟨.hbm, 136, rfl⟩
abbrev main_v106 : Ref sig .tc := ⟨.hbm, 137, rfl⟩
abbrev main_v107 : Ref sig .tc := ⟨.hbm, 138, rfl⟩
abbrev main_c_26 : Ref sig .tc := ⟨.hbm, 139, rfl⟩
abbrev main_v108 : Ref sig .tc := ⟨.hbm, 140, rfl⟩
abbrev main_v109 : Ref sig .tc := ⟨.hbm, 141, rfl⟩
abbrev main_c_27 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_c_28 : Ref sig .tc := ⟨.hbm, 153, rfl⟩
abbrev main_v120 : Ref sig .tc := ⟨.hbm, 154, rfl⟩
abbrev main_v121 : Ref sig .tc := ⟨.hbm, 155, rfl⟩
abbrev main_c_29 : Ref sig .tc := ⟨.hbm, 156, rfl⟩
abbrev main_v122 : Ref sig .tc := ⟨.hbm, 157, rfl⟩
abbrev main_v123 : Ref sig .tc := ⟨.hbm, 158, rfl⟩
abbrev main_c_30 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_c_31 : Ref sig .tc := ⟨.hbm, 170, rfl⟩
abbrev main_v134 : Ref sig .tc := ⟨.hbm, 171, rfl⟩
abbrev main_v135 : Ref sig .tc := ⟨.hbm, 172, rfl⟩
abbrev main_c_32 : Ref sig .tc := ⟨.hbm, 173, rfl⟩
abbrev main_v136 : Ref sig .tc := ⟨.hbm, 174, rfl⟩
abbrev main_v137 : Ref sig .tc := ⟨.hbm, 175, rfl⟩
abbrev main_c_33 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_c_34 : Ref sig .tc := ⟨.hbm, 187, rfl⟩
abbrev main_v148 : Ref sig .tc := ⟨.hbm, 188, rfl⟩
abbrev main_v149 : Ref sig .tc := ⟨.hbm, 189, rfl⟩
abbrev main_c_35 : Ref sig .tc := ⟨.hbm, 190, rfl⟩
abbrev main_v150 : Ref sig .tc := ⟨.hbm, 191, rfl⟩
abbrev main_v151 : Ref sig .tc := ⟨.hbm, 192, rfl⟩
abbrev main_c_36 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_c_37 : Ref sig .tc := ⟨.hbm, 204, rfl⟩
abbrev main_v162 : Ref sig .tc := ⟨.hbm, 205, rfl⟩
abbrev main_v163 : Ref sig .tc := ⟨.hbm, 206, rfl⟩
abbrev main_c_38 : Ref sig .tc := ⟨.hbm, 207, rfl⟩
abbrev main_v164 : Ref sig .tc := ⟨.hbm, 208, rfl⟩
abbrev main_v165 : Ref sig .tc := ⟨.hbm, 209, rfl⟩
abbrev main_c_39 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_c_40 : Ref sig .tc := ⟨.hbm, 221, rfl⟩
abbrev main_v176 : Ref sig .tc := ⟨.hbm, 222, rfl⟩
abbrev main_v177 : Ref sig .tc := ⟨.hbm, 223, rfl⟩
abbrev main_c_41 : Ref sig .tc := ⟨.hbm, 224, rfl⟩
abbrev main_v178 : Ref sig .tc := ⟨.hbm, 225, rfl⟩
abbrev main_v179 : Ref sig .tc := ⟨.hbm, 226, rfl⟩
abbrev main_c_42 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩

abbrev nD : Nat := 1
abbrev τ : Topo := Topo.v7x

variable {F : FTy → Type} [FloatOps F]

class Facts₀ : Prop where
  slices_S8x3x1024x1024_S8x1x1024x1024_0_0_0_0 : S8x3x1024x1024.Slices ![0, 0, 0, 0] S8x1x1024x1024
  shapeCasts_S8x1x1024x1024_S8x1024x1024 : S8x1x1024x1024.ShapeCasts S8x1024x1024
  slices_S8x3x1024x1024_S8x1x1024x1024_0_1_0_0 : S8x3x1024x1024.Slices ![0, 1, 0, 0] S8x1x1024x1024
  slices_S8x3x1024x1024_S8x1x1024x1024_0_2_0_0 : S8x3x1024x1024.Slices ![0, 2, 0, 0] S8x1x1024x1024
  bcast_S_S8x1024x1024 : S_.BroadcastsInDim S8x1024x1024 (![] : Fin 0 → Fin S8x1024x1024.rank)
  shapeCasts_S3x33x33x33_S3x35937 : S3x33x33x33.ShapeCasts S3x35937
  bcast_S8x1024x1024_S8x1024x1024x1_0_1_2 : S8x1024x1024.BroadcastsInDim S8x1024x1024x1 (![0, 1, 2] : Fin 3 → Fin S8x1024x1024x1.rank)
  transposes_S3x8x1024x1024_S8x3x1024x1024_1_0_2_3 : S3x8x1024x1024.Transposes [1, 0, 2, 3] S8x3x1024x1024
  bcast_S8x1024x1024_S8x1x1024x1024_0_2_3 : S8x1024x1024.BroadcastsInDim S8x1x1024x1024 (![0, 2, 3] : Fin 3 → Fin S8x1x1024x1024.rank)
  bcast_S8x1x1024x1024_S8x3x1024x1024_0_1_2_3 : S8x1x1024x1024.BroadcastsInDim S8x3x1024x1024 (![0, 1, 2, 3] : Fin 4 → Fin S8x3x1024x1024.rank)
  gather_S3x35937_S8x1024x1024x1_S3x8x1024x1024_0_1_n_n_1_3_31_wf : GatherDims.WF S3x35937 S8x1024x1024x1 S3x8x1024x1024 [0] [1] [] [1] [] 3 ![3, 1]

variable [Facts₀]

def gather_S3x35937_S8x1024x1024x1_S3x8x1024x1024_0_1_n_n_1_3_31 : GatherDims S3x35937 S8x1024x1024x1 S3x8x1024x1024 where
  offsetDims := [0]
  collapsedSliceDims := [1]
  operandBatchingDims := []
  startIndicesBatchingDims := []
  startIndexMap := [1]
  indexVectorDim := 3
  sliceSizes := ![3, 1]
  wf := gather_S3x35937_S8x1024x1024x1_S3x8x1024x1024_0_1_n_n_1_3_31_wf

class Facts : Prop extends Facts₀ where

variable [Facts]
-- ==== Proof.Trilinear.lean ====
/-
  Trilinear interpolation in a 33 × 33 × 33 table, as one function of the argument arrays.

  A pixel has three coordinates (red, green, blue), each in [0, 1). Dividing a coordinate by the cell
  width gives its position in [0, 32); the integer part of the position names the cell, the remainder
  is the offset inside the cell. The interpolated value of a channel is the sum, over the eight corners
  of the cell, of the table's entry at the corner weighted by the product of the three one-dimensional
  weights (offset towards the corner, one minus the offset away from it).

  Here: the three scalars of a coordinate (position, cell, offset), the eight-corner sum, the whole-array
  function built from it, and the facts about a coordinate in [0, 1) that every later step uses (the
  position is a real number, the cell is one of 0 … 31, the offset is a real number).
-/
import Idealize.ShloMosaic.PureOps.Ideal
import Idealize.ShloMosaic.Lib.ValueIdx

noncomputable section

namespace Cert.Trilinear

open Idealize.ShloMosaic Idealize.ShloMosaic.ValueIdx

/-- The table: three channels over blue × green × red. -/
abbrev STable : Shape := ⟨4, ![3, 33, 33, 33]⟩
/-- The image: batch × colour coordinate × height × width. -/
abbrev SImage : Shape := ⟨4, ![8, 3, 1024, 1024]⟩

/-- The cell width, 2⁻⁵ + 2⁻²⁵, a little more than 1/32. -/
def width : EReal := Ideal.ofBits .f32 0x3D000008#32
/-- The number one as both programs write it. -/
def one : EReal := Ideal.ofBits .f32 0x3F800000#32

/-- A coordinate's position: the coordinate over the cell width. -/
def pos (x : EReal) : EReal := Ideal.div x width
/-- A coordinate's cell: the integer part of its position, as a 32-bit word. -/
def cell (x : EReal) : BitVec 32 := Ideal.fptosi 32 (Ideal.liftRound Int.floor (pos x))
/-- A coordinate's offset inside its cell. -/
def frac (x : EReal) : EReal := pos x - (((cell x).toInt : ℝ) : EReal)

/-- A table coordinate from a natural number (numbers past the last node name the last node). -/
def node (n : Nat) : Fin 33 := ⟨min n 32, by omega⟩

/-- The eight-corner sum for one channel's table \`L\` (blue, green, red) at the coordinates \`xr xg xb\`,
    the corners in the order red, green, blue with red moving fastest. -/
def tri (L : Fin 33 → Fin 33 → Fin 33 → EReal) (xr xg xb : EReal) : EReal :=
  (((one - frac xr) * (one - frac xg)) * (one - frac xb)) * L (node (cell xb).toNat) (node (cell xg).toNat) (node (cell xr).toNat)
  + ((frac xr * (one - frac xg)) * (one - frac xb)) * L (node (cell xb).toNat) (node (cell xg).toNat) (node ((cell xr).toNat + 1))
  + (((one - frac xr) * frac xg) * (one - frac xb)) * L (node (cell xb).toNat) (node ((cell xg).toNat + 1)) (node (cell xr).toNat)
  + ((frac xr * frac xg) * (one - frac xb)) * L (node (cell xb).toNat) (node ((cell xg).toNat + 1)) (node ((cell xr).toNat + 1))
  + (((one - frac xr) * (one - frac xg)) * frac xb) * L (node ((cell xb).toNat + 1)) (node (cell xg).toNat) (node (cell xr).toNat)
  + ((frac xr * (one - frac xg)) * frac xb) * L (node ((cell xb).toNat + 1)) (node (cell xg).toNat) (node ((cell xr).toNat + 1))
  + (((one - frac xr) * frac xg) * frac xb) * L (node ((cell xb).toNat + 1)) (node ((cell xg).toNat + 1)) (node (cell xr).toNat)
  + ((frac xr * frac xg) * frac xb) * L (node ((cell xb).toNat + 1)) (node ((cell xg).toNat + 1)) (node ((cell xr).toNat + 1))

/-- The interpolated image: entry (batch, channel, row, column) is the eight-corner sum of that channel's
    table at the pixel's three coordinates. -/
def G (lut : STable.Idx → EReal) (x : SImage.Idx → EReal) : SImage.Idx → EReal := fun i =>
  tri (fun b g r => lut (ix4 (i 1) b g r)) (x (ix4 (i 0) (0 : Fin 3) (i 2) (i 3))) (x (ix4 (i 0) (1 : Fin 3) (i 2) (i 3)))
    (x (ix4 (i 0) (2 : Fin 3) (i 2) (i 3)))

/-- Every coordinate of the image is a real number in [0, 1). -/
def InUnit (x : SImage.Idx → EReal) : Prop := ∀ i, ∃ r : ℝ, x i = (r : EReal) ∧ 0 ≤ r ∧ r < 1
/-- Every entry of the table is a real number. -/
def Finite (lut : STable.Idx → EReal) : Prop := ∀ i, ∃ r : ℝ, lut i = (r : EReal)

/-! ## A coordinate in [0, 1) -/

theorem width_eq : width = (((2 : ℝ) ^ (-5 : ℤ) + (2 : ℝ) ^ (-25 : ℤ) : ℝ) : EReal) := by
  unfold width
  simp [Ideal.ofBits, Ideal.ieee]
  norm_cast
  norm_num

theorem one_eq : one = ((1 : ℝ) : EReal) := by
  unfold one
  simp [Ideal.ofBits, Ideal.ieee]
  norm_cast
  norm_num

/-- The cell width is a positive real, and 32 widths exceed one: a coordinate below one lies below position 32. -/
theorem width_facts : ∃ w : ℝ, width = (w : EReal) ∧ 0 < w ∧ 1 < 32 * w :=
  ⟨_, width_eq, by positivity, by norm_num⟩

/-- A coordinate in [0, 1): its cell is one of 0 … 31 (as a word, the number itself) and its offset is a
    real number. -/
theorem unit_facts {x : EReal} {r : ℝ} (hx : x = (r : EReal)) (h0 : 0 ≤ r) (h1 : r < 1) :
    ∃ (n : Nat) (d : ℝ), n ≤ 31 ∧ cell x = BitVec.ofNat 32 n ∧ frac x = (d : EReal) := by
  obtain ⟨w, hw, hwpos, hw32⟩ := width_facts
  have hpos : pos x = ((r * (1 / w) : ℝ) : EReal) := by
    unfold pos
    rw [hw, hx, Ideal.div_coe hwpos.ne', ← EReal.coe_mul]
  have hq0 : 0 ≤ r * (1 / w) := by positivity
  have hq32 : r * (1 / w) < 32 := by
    have h1w : 1 / w < 32 := by rw [div_lt_iff₀ hwpos]; linarith
    have : r * (1 / w) ≤ 1 * (1 / w) := by
      apply mul_le_mul_of_nonneg_right h1.le; positivity
    linarith
  generalize r * (1 / w) = q at hpos hq0 hq32
  have hfl0 : 0 ≤ ⌊q⌋ := Int.floor_nonneg.mpr hq0
  have hfl31 : ⌊q⌋ ≤ 31 := by
    have : ⌊q⌋ < 32 := Int.floor_lt.mpr (by exact_mod_cast hq32)
    omega
  have hcell : cell x = BitVec.ofNat 32 ⌊q⌋.toNat := by
    unfold cell
    rw [hpos, Ideal.liftRound_coe, Ideal.fptosi, Ideal.toIntClamped_coe,
      if_pos (by exact_mod_cast hfl0), Int.floor_intCast]
    rw [min_eq_right (by norm_num; omega), max_eq_right (by norm_num; omega)]
    conv_lhs => rw [← Int.toNat_of_nonneg hfl0]
    exact BitVec.ofInt_natCast _ _
  refine ⟨⌊q⌋.toNat, q - ((⌊q⌋.toNat : ℕ) : ℝ), by omega, hcell, ?_⟩
  unfold frac
  rw [hcell, hpos, ← EReal.coe_sub]
  have hn : ⌊q⌋.toNat ≤ 31 := by omega
  have : (BitVec.ofNat 32 ⌊q⌋.toNat).toInt = ((⌊q⌋.toNat : ℕ) : ℤ) := by
    rw [BitVec.toInt_eq_toNat_cond, BitVec.toNat_ofNat]
    have hm : ⌊q⌋.toNat % 2 ^ 32 = ⌊q⌋.toNat := Nat.mod_eq_of_lt (by omega)
    rw [hm, if_pos (by omega)]
  rw [this]
  norm_cast

/-- The three coordinates of a pixel of an image with every coordinate in [0, 1): each has its cell among
    0 … 31 and a real offset. -/
theorem InUnit.facts {x : SImage.Idx → EReal} (hx : InUnit x) (i : SImage.Idx) :
    ∃ (n : Nat) (d : ℝ), n ≤ 31 ∧ cell (x i) = BitVec.ofNat 32 n ∧ frac (x i) = (d : EReal) := by
  obtain ⟨r, hr, h0, h1⟩ := hx i
  exact unit_facts hr h0 h1

end Cert.Trilinear

end
-- ==== Proof.Weights.lean ====
/-
  The kernel's interpolation weights.

  For one pixel coordinate the kernel builds a vector of 33 weights, one per table coordinate: it compares
  the table coordinate with the coordinate's cell and with the cell plus one, selects one minus the offset,
  the offset, or zero, and adds the two selections. For a coordinate in [0, 1) the cell is one of 0 … 31 and
  the offset is real, and the weight is the familiar hat function over the reals.
-/
import proofs.«131245_j52501680226537_2_alg».proof.Proof.Trilinear

noncomputable section

namespace Cert.Trilinear

open Idealize.ShloMosaic Idealize.ShloMosaic.ValueIdx

/-- The number zero as the kernel writes it. -/
def zero : EReal := Ideal.ofBits .f32 0x00000000#32

/-- The weight the kernel gives table coordinate \`j\` for a pixel coordinate \`x\`: one minus the offset at the
    coordinate's cell, the offset at the next one, nothing elsewhere (two selections, added). -/
def hot (x : EReal) (j : Fin 33) : EReal :=
  Scalar.select (IntOp.cmpi .eq (BitVec.ofNat 32 j.val) (cell x)) (one - frac x) zero
  + Scalar.select (IntOp.cmpi .eq (BitVec.ofNat 32 j.val) (IntOp.addi (cell x) 1#32)) (frac x) zero

/-- The same weight over the reals, for a coordinate in cell \`A\` with offset \`d\`. -/
def hotR (A : Nat) (d : ℝ) (j : Fin 33) : ℝ := (if j.val = A then 1 - d else 0) + (if j.val = A + 1 then d else 0)

theorem zero_eq : zero = ((0 : ℝ) : EReal) := by
  unfold zero
  simp [Ideal.ofBits, Ideal.ieee]

theorem word_eq_iff {a b : Nat} (ha : a < 2 ^ 32) (hb : b < 2 ^ 32) : (BitVec.ofNat 32 a == BitVec.ofNat 32 b) = decide (a = b) := by
  by_cases h : a = b
  · subst h; simp
  · have : BitVec.ofNat 32 a ≠ BitVec.ofNat 32 b := by
      intro he
      have := congrArg BitVec.toNat he
      simp only [BitVec.toNat_ofNat, Nat.mod_eq_of_lt ha, Nat.mod_eq_of_lt hb] at this
      exact h this
    simp [h, this]

/-- For a coordinate in cell \`A ≤ 31\` with a real offset the kernel's weight is the real weight. -/
theorem hot_eq {x : EReal} {A : Nat} {d : ℝ} (hA : A ≤ 31) (hc : cell x = BitVec.ofNat 32 A) (hd : frac x = (d : EReal))
    (j : Fin 33) : hot x j = ((hotR A d j : ℝ) : EReal) := by
  have hj := j.isLt
  have e1 : IntOp.cmpi .eq (BitVec.ofNat 32 j.val) (BitVec.ofNat 32 A) = BitVec.ofBool (decide (j.val = A)) := by
    show BitVec.ofBool (BitVec.ofNat 32 j.val == BitVec.ofNat 32 A) = _
    rw [word_eq_iff (by omega) (by omega)]
  have e2 : IntOp.cmpi .eq (BitVec.ofNat 32 j.val) (IntOp.addi (BitVec.ofNat 32 A) 1#32)
      = BitVec.ofBool (decide (j.val = A + 1)) := by
    have : IntOp.addi (BitVec.ofNat 32 A) 1#32 = BitVec.ofNat 32 (A + 1) := by
      show BitVec.ofNat 32 A + BitVec.ofNat 32 1 = _
      rw [← BitVec.ofNat_add]
    rw [this]
    show BitVec.ofBool (BitVec.ofNat 32 j.val == BitVec.ofNat 32 (A + 1)) = _
    rw [word_eq_iff (by omega) (by omega)]
  unfold hot hotR
  rw [hc, hd, one_eq, zero_eq, e1, e2]
  by_cases h1 : j.val = A <;> by_cases h2 : j.val = A + 1
  · omega
  · simp [h1, h2, Scalar.select]
  · simp [h1, h2, Scalar.select]
  · simp [h1, h2, Scalar.select]

end Cert.Trilinear

end
-- ==== Proof.Layouts.lean ====
/-
  The kernel's re-laid vectors read at an index.

  The kernel body flattens an 8 × 128 tile of pixels to a vector of 1024, turns vectors into columns,
  spreads columns and rows over matrices, flattens a (blue, green) pair of table coordinates to one row
  number 33·blue + green, and splits a column number 3·red + channel back into (red, channel). Each
  lemma here says which entry of the operand an entry of the re-laid vector is; a composite index is
  always written from its parts (pixel a·128 + b, row blue·33 + green, column red·3 + channel), so no
  division appears later.
-/
import Idealize.ShloMosaic.Lib.Pipeline.Value
import Idealize.ShloMosaic.Lib.ValueIdx
import Idealize.ShloMosaic.Lib.ValueLayout

namespace Cert.Layouts

open Idealize.ShloMosaic Idealize.ShloMosaic.ValueIdx

variable {α : Type}

/-- Pixel number of tile position (a, b). -/
abbrev px (a : Fin 8) (b : Fin 128) : Fin 1024 := ⟨a.val * 128 + b.val, by omega⟩
/-- Row number of the (blue, green) pair. -/
abbrev bg (bl g : Fin 33) : Fin 1089 := ⟨bl.val * 33 + g.val, by omega⟩
/-- Column number of the (red, channel) pair. -/
abbrev rc (r : Fin 33) (ch : Fin 3) : Fin 99 := ⟨r.val * 3 + ch.val, by omega⟩

/-- A [1, 1, 8, 128] block seen as an 8 × 128 tile. -/
theorem tile_of_block (x : (⟨4, ![1, 1, 8, 128]⟩ : Shape).Idx → α)
    (h : (⟨4, ![1, 1, 8, 128]⟩ : Shape).ShapeCasts ⟨2, ![8, 128]⟩) (a : Fin 8) (b : Fin 128) :
    shapeCast ⟨2, ![8, 128]⟩ x h (ix2 a b) = x (ix4 (0 : Fin 1) (0 : Fin 1) a b) :=
  shapeCast_apply x h _ _ (by
    rw [Shape.rowMajor_val_four, Shape.rowMajor_val_two]
    show ((0 * 1 + 0) * 8 + a.val) * 128 + b.val = a.val * 128 + b.val
    omega)

/-- An 8 × 128 tile seen as a [1, 1, 8, 128] block. -/
theorem block_of_tile (x : (⟨2, ![8, 128]⟩ : Shape).Idx → α)
    (h : (⟨2, ![8, 128]⟩ : Shape).ShapeCasts ⟨4, ![1, 1, 8, 128]⟩) (a : Fin 8) (b : Fin 128) :
    shapeCast ⟨4, ![1, 1, 8, 128]⟩ x h (ix4 (0 : Fin 1) (0 : Fin 1) a b) = x (ix2 a b) :=
  shapeCast_apply x h _ _ (by
    rw [Shape.rowMajor_val_four, Shape.rowMajor_val_two]
    show a.val * 128 + b.val = ((0 * 1 + 0) * 8 + a.val) * 128 + b.val
    omega)

/-- An 8 × 128 tile flattened to 1024 pixels. -/
theorem pixels_of_tile (x : (⟨2, ![8, 128]⟩ : Shape).Idx → α)
    (h : (⟨2, ![8, 128]⟩ : Shape).ShapeCasts ⟨1, ![1024]⟩) (a : Fin 8) (b : Fin 128) :
    shapeCast ⟨1, ![1024]⟩ x h (ix1 (px a b)) = x (ix2 a b) :=
  shapeCast_apply x h _ _ (by
    rw [Shape.rowMajor_val_two, Shape.rowMajor_val_one]
    show a.val * 128 + b.val = a.val * 128 + b.val
    rfl)

/-- 1024 pixels laid back on the 8 × 128 tile. -/
theorem tile_of_pixels (x : (⟨1, ![1024]⟩ : Shape).Idx → α)
    (h : (⟨1, ![1024]⟩ : Shape).ShapeCasts ⟨2, ![8, 128]⟩) (a : Fin 8) (b : Fin 128) :
    shapeCast ⟨2, ![8, 128]⟩ x h (ix2 a b) = x (ix1 (px a b)) :=
  shapeCast_apply x h _ _ (by
    rw [Shape.rowMajor_val_two, Shape.rowMajor_val_one]
    show a.val * 128 + b.val = a.val * 128 + b.val
    rfl)

/-- A vector of 1024 as a column. -/
theorem column_of_vector (x : (⟨1, ![1024]⟩ : Shape).Idx → α)
    (h : (⟨1, ![1024]⟩ : Shape).ShapeCasts ⟨2, ![1024, 1]⟩) (p : Fin 1024) (u : Fin 1) :
    shapeCast ⟨2, ![1024, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column of 1024 as a vector. -/
theorem vector_of_column (x : (⟨2, ![1024, 1]⟩ : Shape).Idx → α)
    (h : (⟨2, ![1024, 1]⟩ : Shape).ShapeCasts ⟨1, ![1024]⟩) (p : Fin 1024) :
    shapeCast ⟨1, ![1024]⟩ x h (ix1 p) = x (ix2 p (0 : Fin 1)) :=
  shapeCast_apply x h _ _ (by
    rw [Shape.rowMajor_val_two, Shape.rowMajor_val_one]
    show p.val * 1 + 0 = p.val
    omega)

/-- A column spread over the 33 columns of a matrix. -/
theorem spread_column (x : (⟨2, ![1024, 1]⟩ : Shape).Idx → α)
    (h : (⟨2, ![1024, 1]⟩ : Shape).Broadcasts ⟨2, ![1024, 33]⟩) (p : Fin 1024) (j : Fin 33) :
    broadcastTo ⟨2, ![1024, 33]⟩ x h (ix2 p j) = x (ix2 p (0 : Fin 1)) := by
  refine broadcastTo_apply x h (ix2 p j) (ix2 p (0 : Fin 1)) fun ax => ?_
  match ax with
  | ⟨0, _⟩ => rfl
  | ⟨1, _⟩ => rfl

/-- A 1024 × 33 matrix with a unit axis added last. -/
theorem last_unit (x : (⟨2, ![1024, 33]⟩ : Shape).Idx → α)
    (h : (⟨2, ![1024, 33]⟩ : Shape).ShapeCasts ⟨3, ![1024, 33, 1]⟩) (p : Fin 1024) (j : Fin 33) (u : Fin 1) :
    shapeCast ⟨3, ![1024, 33, 1]⟩ x h (ix3 p j u) = x (ix2 p j) :=
  shapeCast_apply x h _ _ (by
    have hu : u.val = 0 := by omega
    rw [Shape.rowMajor_val_three, Shape.rowMajor_val_two]
    show p.val * 33 + j.val = (p.val * 33 + j.val) * 1 + u.val
    omega)

/-- A 1024 × 33 matrix with a unit axis added in the middle. -/
theorem middle_unit (x : (⟨2, ![1024, 33]⟩ : Shape).Idx → α)
    (h : (⟨2, ![1024, 33]⟩ : Shape).ShapeCasts ⟨3, ![1024, 1, 33]⟩) (p : Fin 1024) (u : Fin 1) (j : Fin 33) :
    shapeCast ⟨3, ![1024, 1, 33]⟩ x h (ix3 p u j) = x (ix2 p j) :=
  shapeCast_apply x h _ _ (by
    have hu : u.val = 0 := by omega
    rw [Shape.rowMajor_val_three, Shape.rowMajor_val_two]
    show p.val * 33 + j.val = (p.val * 1 + u.val) * 33 + j.val
    omega)

/-- A [1024, 33, 1] array spread over a last axis of n. -/
theorem spread_last {n : Nat} (x : (⟨3, ![1024, 33, 1]⟩ : Shape).Idx → α)
    (h : (⟨3, ![1024, 33, 1]⟩ : Shape).Broadcasts ⟨3, ![1024, 33, n]⟩) (p : Fin 1024) (i : Fin 33) (j : Fin n) :
    broadcastTo ⟨3, ![1024, 33, n]⟩ x h (ix3 p i j) = x (ix3 p i (0 : Fin 1)) := by
  refine broadcastTo_apply x h (ix3 p i j) (ix3 p i (0 : Fin 1)) fun ax => ?_
  match ax with
  | ⟨0, _⟩ => rfl
  | ⟨1, _⟩ => rfl
  | ⟨2, _⟩ => rfl

/-- A [1024, 1, 33] array spread over a middle axis of 33. -/
theorem spread_middle (x : (⟨3, ![1024, 1, 33]⟩ : Shape).Idx → α)
    (h : (⟨3, ![1024, 1, 33]⟩ : Shape).Broadcasts ⟨3, ![1024, 33, 33]⟩) (p : Fin 1024) (i j : Fin 33) :
    broadcastTo ⟨3, ![1024, 33, 33]⟩ x h (ix3 p i j) = x (ix3 p (0 : Fin 1) j) := by
  refine broadcastTo_apply x h (ix3 p i j) (ix3 p (0 : Fin 1) j) fun ax => ?_
  match ax with
  | ⟨0, _⟩ => rfl
  | ⟨1, _⟩ => rfl
  | ⟨2, _⟩ => rfl

/-- The (blue, green) pairs flattened to 1089 rows. -/
theorem rows_of_pairs (x : (⟨3, ![1024, 33, 33]⟩ : Shape).Idx → α)
    (h : (⟨3, ![1024, 33, 33]⟩ : Shape).ShapeCasts ⟨2, ![1024, 1089]⟩) (p : Fin 1024) (bl g : Fin 33) :
    shapeCast ⟨2, ![1024, 1089]⟩ x h (ix2 p (bg bl g)) = x (ix3 p bl g) :=
  shapeCast_apply x h _ _ (by
    rw [Shape.rowMajor_val_three, Shape.rowMajor_val_two]
    show (p.val * 33 + bl.val) * 33 + g.val = p.val * 1089 + (bl.val * 33 + g.val)
    omega)

/-- The 99 columns split into (red, channel). -/
theorem pairs_of_columns (x : (⟨2, ![1024, 99]⟩ : Shape).Idx → α)
    (h : (⟨2, ![1024, 99]⟩ : Shape).ShapeCasts ⟨3, ![1024, 33, 3]⟩) (p : Fin 1024) (r : Fin 33) (ch : Fin 3) :
    shapeCast ⟨3, ![1024, 33, 3]⟩ x h (ix3 p r ch) = x (ix2 p (rc r ch)) :=
  shapeCast_apply x h _ _ (by
    rw [Shape.rowMajor_val_three, Shape.rowMajor_val_two]
    show p.val * 99 + (r.val * 3 + ch.val) = (p.val * 33 + r.val) * 3 + ch.val
    omega)

/-- One channel's column of a 1024 × 3 matrix. -/
theorem channel_column (o : Nat) (x : (⟨2, ![1024, 3]⟩ : Shape).Idx → α)
    (h : (⟨2, ![1024, 3]⟩ : Shape).Slices ![0, o] ⟨2, ![1024, 1]⟩) (p : Fin 1024) (ch : Fin 3) (hch : ch.val = o) :
    extractStridedSlice ⟨2, ![1024, 1]⟩ ![0, o] x h (ix2 p (0 : Fin 1)) = x (ix2 p ch) :=
  extractStridedSlice_apply _ x h _ _ (fun ax => by
    match ax with
    | ⟨0, _⟩ => exact (Nat.zero_add _).symm
    | ⟨1, _⟩ => show ch.val = o + 0; omega)

end Cert.Layouts
-- ==== Proof.BlockValue.lean ====
/-
  What the kernel computes, as functions.

  For one pixel and one channel the kernel forms a weighted triple sum of table entries: over red, the red
  weight times the sum over (blue, green) of the product of the blue and green weights times the entry.
  An output block holds that sum for the 8 × 128 pixels of a tile and the three channels, read off the
  tile's input block and the re-laid table (row 33·blue + green, column 3·red + channel); the whole output
  image holds it for every pixel.
-/
import proofs.«131245_j52501680226537_2_alg».proof.Proof.Weights
import proofs.«131245_j52501680226537_2_alg».proof.Proof.Layouts

noncomputable section

namespace Cert.Trilinear

open Idealize.ShloMosaic Idealize.ShloMosaic.ValueIdx Cert.Layouts

/-- A tile's block of the image: one batch entry, three coordinates, 8 × 128 pixels. -/
abbrev SBlock : Shape := ⟨4, ![1, 3, 8, 128]⟩
/-- The re-laid table: (blue, green) pairs by (red, channel) pairs. -/
abbrev SRows : Shape := ⟨2, ![1089, 99]⟩

/-- The kernel's weighted triple sum of one channel's table \`T\` (blue, green, red) at three coordinates. -/
def weighted (xr xg xb : EReal) (T : Fin 33 → Fin 33 → Fin 33 → EReal) : EReal :=
  ∑ r : Fin 33, hot xr r * ∑ bl : Fin 33, ∑ g : Fin 33, (hot xb bl * hot xg g) * T bl g r

/-- The output block a tile's input block \`x0\` and the re-laid table \`x1\` give. -/
def blockValue (x0 : SBlock.Idx → EReal) (x1 : SRows.Idx → EReal) : SBlock.Idx → EReal := fun y =>
  weighted (x0 (ix4 (0 : Fin 1) (0 : Fin 3) (y 2) (y 3))) (x0 (ix4 (0 : Fin 1) (1 : Fin 3) (y 2) (y 3)))
    (x0 (ix4 (0 : Fin 1) (2 : Fin 3) (y 2) (y 3))) (fun bl g r => x1 (ix2 (bg bl g) (rc r (y 1))))

/-- The output image the image \`x\` and the re-laid table \`tbl\` give. -/
def arrayValue (x : SImage.Idx → EReal) (tbl : SRows.Idx → EReal) : SImage.Idx → EReal := fun i =>
  weighted (x (ix4 (i 0) (0 : Fin 3) (i 2) (i 3))) (x (ix4 (i 0) (1 : Fin 3) (i 2) (i 3)))
    (x (ix4 (i 0) (2 : Fin 3) (i 2) (i 3))) (fun bl g r => tbl (ix2 (bg bl g) (rc r (i 1))))

end Cert.Trilinear

end
-- ==== Proof.Payload.lean ====
/-
  What the kernel body leaves in an output block.

  The body loads the three colour planes of a tile (8 × 128 pixels each) and the whole re-laid table. For
  each plane it computes, per pixel, the position, the cell and the offset of the coordinate, and from
  them the 33 interpolation weights (a comparison of the table coordinate with the cell and with the next
  cell, two selections, a sum). The blue and green weights are multiplied pairwise into 1089 weights per
  pixel, a matrix product with the table contracts them against the 1089 rows, the 99 columns are split
  into (red, channel), the red weights multiply, and a sum over red leaves one number per pixel and
  channel; the three channels are stored through three rectangles that tile the block. Read at an index,
  the stored block is the weighted triple sum of the block value.
-/
import proofs.«131245_j52501680226537_2_alg».proof.Proof.Gen.KernelIdeal.Frame
import proofs.«131245_j52501680226537_2_alg».proof.Proof.BlockValue
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Payload

open Cert.KernelIdeal Cert.KernelIdeal.Gen Idealize.ShloMosaic Idealize.ShloMosaic.ValueIdx Cert.Trilinear Cert.Layouts

/-! ## One colour plane at a pixel: position, cell, offset -/

theorem pos5 (v : Vec Ideal S1x1x8x128 .f32) (a : Fin 8) (b : Fin 128) :
    k0_pay5 (F := Ideal) v (ix1 (px a b)) = pos (v (ix4 (0 : Fin 1) (0 : Fin 1) a b)) := by
  unfold k0_pay5
  show Ideal.div (shapeCast S1024 (shapeCast S8x128 v _) _ (ix1 (px a b))) width = _
  rw [pixels_of_tile, tile_of_block]
  rfl

theorem pos6 (v : Vec Ideal S1x1x8x128 .f32) (a : Fin 8) (b : Fin 128) :
    k0_pay6 (F := Ideal) v (ix1 (px a b)) = pos (v (ix4 (0 : Fin 1) (0 : Fin 1) a b)) := by
  unfold k0_pay6
  show Ideal.div (shapeCast S1024 (shapeCast S8x128 v _) _ (ix1 (px a b))) width = _
  rw [pixels_of_tile, tile_of_block]
  rfl

theorem pos7 (v : Vec Ideal S1x1x8x128 .f32) (a : Fin 8) (b : Fin 128) :
    k0_pay7 (F := Ideal) v (ix1 (px a b)) = pos (v (ix4 (0 : Fin 1) (0 : Fin 1) a b)) := by
  unfold k0_pay7
  show Ideal.div (shapeCast S1024 (shapeCast S8x128 v _) _ (ix1 (px a b))) width = _
  rw [pixels_of_tile, tile_of_block]
  rfl

theorem cell8 (v : Vec Ideal S1x1x8x128 .f32) (a : Fin 8) (b : Fin 128) :
    k0_pay8 (F := Ideal) v (ix1 (px a b)) = cell (v (ix4 (0 : Fin 1) (0 : Fin 1) a b)) := by
  unfold k0_pay8
  show Ideal.fptosi 32 (Ideal.liftRound Int.floor (k0_pay5 (F := Ideal) v (ix1 (px a b)))) = _
  rw [pos5]
  rfl

theorem cell9 (v : Vec Ideal S1x1x8x128 .f32) (a : Fin 8) (b : Fin 128) :
    k0_pay9 (F := Ideal) v (ix1 (px a b)) = cell (v (ix4 (0 : Fin 1) (0 : Fin 1) a b)) := by
  unfold k0_pay9
  show Ideal.fptosi 32 (Ideal.liftRound Int.floor (k0_pay6 (F := Ideal) v (ix1 (px a b)))) = _
  rw [pos6]
  rfl

theorem cell10 (v : Vec Ideal S1x1x8x128 .f32) (a : Fin 8) (b : Fin 128) :
    k0_pay10 (F := Ideal) v (ix1 (px a b)) = cell (v (ix4 (0 : Fin 1) (0 : Fin 1) a b)) := by
  unfold k0_pay10
  show Ideal.fptosi 32 (Ideal.liftRound Int.floor (k0_pay7 (F := Ideal) v (ix1 (px a b)))) = _
  rw [pos7]
  rfl

theorem frac14 (v : Vec Ideal S1x1x8x128 .f32) (a : Fin 8) (b : Fin 128) (u : Fin 1) :
    k0_pay14 (F := Ideal) v (ix2 (px a b) u) = frac (v (ix4 (0 : Fin 1) (0 : Fin 1) a b)) := by
  unfold k0_pay14
  show shapeCast S1024x1 (subf (k0_pay5 (F := Ideal) v) (sitofp .f32 (k0_pay8 (F := Ideal) v))) _ (ix2 (px a b) u) = _
  rw [column_of_vector]
  show k0_pay5 (F := Ideal) v (ix1 (px a b)) - (((k0_pay8 (F := Ideal) v (ix1 (px a b))).toInt : ℝ) : EReal) = _
  rw [pos5, cell8]
  rfl

theorem frac11 (v : Vec Ideal S1x1x8x128 .f32) (a : Fin 8) (b : Fin 128) :
    k0_pay11 (F := Ideal) v (ix1 (px a b)) = frac (v (ix4 (0 : Fin 1) (0 : Fin 1) a b)) := by
  unfold k0_pay11
  show k0_pay6 (F := Ideal) v (ix1 (px a b)) - (((k0_pay9 (F := Ideal) v (ix1 (px a b))).toInt : ℝ) : EReal) = _
  rw [pos6, cell9]
  rfl

theorem frac12 (v : Vec Ideal S1x1x8x128 .f32) (a : Fin 8) (b : Fin 128) :
    k0_pay12 (F := Ideal) v (ix1 (px a b)) = frac (v (ix4 (0 : Fin 1) (0 : Fin 1) a b)) := by
  unfold k0_pay12
  show k0_pay7 (F := Ideal) v (ix1 (px a b)) - (((k0_pay10 (F := Ideal) v (ix1 (px a b))).toInt : ℝ) : EReal) = _
  rw [pos7, cell10]
  rfl

/-! ## The table coordinate's number, and the two comparisons -/

/-- The row of table coordinate numbers 0 … 32. -/
theorem coordinate_row (h : S1x33.Iotas .tc 32 [1]) (u : Fin 1) (j : Fin 33) :
    iota .tc S1x33 32 [1] h (ix2 u j) = BitVec.ofNat 32 j.val := by
  rw [iota_single_apply]

/-- The weight of table coordinate \`j\` from a cell word \`n\`, the complement \`w0\` and the offset \`w1\`. -/
def weightOf (n : BitVec 32) (w0 w1 : EReal) (j : Fin 33) : EReal :=
  Scalar.select (IntOp.cmpi .eq (BitVec.ofNat 32 j.val) n) w0 zero
  + Scalar.select (IntOp.cmpi .eq (BitVec.ofNat 32 j.val) (IntOp.addi n 1#32)) w1 zero

theorem weightOf_hot (x : EReal) (j : Fin 33) : weightOf (cell x) (one - frac x) (frac x) j = hot x j := rfl

/-! ## The red weights (their pieces are computed in four payloads) -/

theorem red_cell_column (v : Vec Ideal S1x1x8x128 .f32) (a : Fin 8) (b : Fin 128) (u : Fin 1) :
    k0_pay13 (F := Ideal) v (ix2 (px a b) u) = cell (v (ix4 (0 : Fin 1) (0 : Fin 1) a b)) := by
  unfold k0_pay13
  show shapeCast S1024x1 (k0_pay8 (F := Ideal) v) _ (ix2 (px a b) u) = _
  rw [column_of_vector, cell8]

theorem red_at_cell (v : Vec Ideal S1x1x8x128 .f32) (a : Fin 8) (b : Fin 128) (j : Fin 33) :
    k0_pay15 (F := Ideal) v (ix2 (px a b) j)
      = IntOp.cmpi .eq (BitVec.ofNat 32 j.val) (cell (v (ix4 (0 : Fin 1) (0 : Fin 1) a b))) := by
  unfold k0_pay15
  show IntOp.cmpi .eq (broadcastTo S1024x33 (iota .tc S1x33 32 [1] _) _ (ix2 (px a b) j))
      (broadcastTo S1024x33 (k0_pay13 (F := Ideal) v) _ (ix2 (px a b) j)) = _
  rw [broadcastTo_1b_ab_apply, coordinate_row, spread_column, red_cell_column]

theorem red_at_next (v : Vec Ideal S1x1x8x128 .f32) (a : Fin 8) (b : Fin 128) (j : Fin 33) :
    k0_pay16 (F := Ideal) v (ix2 (px a b) j)
      = IntOp.cmpi .eq (BitVec.ofNat 32 j.val) (IntOp.addi (cell (v (ix4 (0 : Fin 1) (0 : Fin 1) a b))) 1#32) := by
  unfold k0_pay16
  show IntOp.cmpi .eq (broadcastTo S1024x33 (iota .tc S1x33 32 [1] _) _ (ix2 (px a b) j))
      (broadcastTo S1024x33 (addi (k0_pay13 (F := Ideal) v) (broadcast S1024x1 1#32)) _ (ix2 (px a b) j)) = _
  rw [broadcastTo_1b_ab_apply, coordinate_row, spread_column]
  show IntOp.cmpi .eq _ (IntOp.addi (k0_pay13 (F := Ideal) v (ix2 (px a b) (0 : Fin 1))) 1#32) = _
  rw [red_cell_column]

theorem red_complement (v : Vec Ideal S1x1x8x128 .f32) (a : Fin 8) (b : Fin 128) (u : Fin 1) :
    k0_pay17 (F := Ideal) v (ix2 (px a b) u) = one - frac (v (ix4 (0 : Fin 1) (0 : Fin 1) a b)) := by
  unfold k0_pay17
  show one - k0_pay14 (F := Ideal) v (ix2 (px a b) u) = _
  rw [frac14]

theorem red_weights (v : Vec Ideal S1x1x8x128 .f32) (a : Fin 8) (b : Fin 128) (j : Fin 33) :
    k0_pay18 (F := Ideal) (k0_pay14 v) (k0_pay15 v) (k0_pay16 v) (k0_pay17 v) (ix2 (px a b) j)
      = hot (v (ix4 (0 : Fin 1) (0 : Fin 1) a b)) j := by
  unfold k0_pay18
  show Scalar.select (k0_pay15 (F := Ideal) v (ix2 (px a b) j))
        (broadcastTo S1024x33 (shapeCast S1024x1 (k0_pay17 (F := Ideal) v) _) _ (ix2 (px a b) j)) zero
      + Scalar.select (k0_pay16 (F := Ideal) v (ix2 (px a b) j))
        (broadcastTo S1024x33 (shapeCast S1024x1 (k0_pay14 (F := Ideal) v) _) _ (ix2 (px a b) j)) zero = _
  rw [spread_column, spread_column, shapeCast_self, shapeCast_self, red_at_cell, red_at_next, red_complement, frac14]
  rfl

/-! ## The green weights (one payload) and the blue weights (two payloads, added later) -/

theorem green_weights_of (n : IVec S1024 32) (d : FVec Ideal S1024 .f32) (hi : S1x33.Iotas .tc 32 [1])
    (p : Fin 1024) (j : Fin 33) :
    k0_pay19 (F := Ideal) n d (iota .tc S1x33 32 [1] hi) (ix2 p j)
      = weightOf (n (ix1 p)) (one - d (ix1 p)) (d (ix1 p)) j := by
  unfold k0_pay19
  show Scalar.select (IntOp.cmpi .eq (broadcastTo S1024x33 (iota .tc S1x33 32 [1] hi) _ (ix2 p j))
          (broadcastTo S1024x33 (shapeCast S1024x1 n _) _ (ix2 p j)))
        (broadcastTo S1024x33 (shapeCast S1024x1 (subf (broadcast S1024x1 one) (shapeCast S1024x1 d _)) _) _ (ix2 p j)) zero
      + Scalar.select (IntOp.cmpi .eq (broadcastTo S1024x33 (iota .tc S1x33 32 [1] hi) _ (ix2 p j))
          (broadcastTo S1024x33 (addi (shapeCast S1024x1 n _) (broadcast S1024x1 1#32)) _ (ix2 p j)))
        (broadcastTo S1024x33 (shapeCast S1024x1 (shapeCast S1024x1 d _) _) _ (ix2 p j)) zero = _
  rw [broadcastTo_1b_ab_apply, coordinate_row, spread_column, spread_column, spread_column, spread_column,
    shapeCast_self, shapeCast_self, column_of_vector]
  show Scalar.select (IntOp.cmpi .eq _ (n (ix1 p))) (one - shapeCast S1024x1 d _ (ix2 p (0 : Fin 1))) zero
      + Scalar.select (IntOp.cmpi .eq _ (IntOp.addi (shapeCast S1024x1 n _ (ix2 p (0 : Fin 1))) 1#32))
          (shapeCast S1024x1 d _ (ix2 p (0 : Fin 1))) zero = _
  rw [column_of_vector, column_of_vector]
  rfl

theorem green_weights (v : Vec Ideal S1x1x8x128 .f32) (hi : S1x33.Iotas .tc 32 [1]) (a : Fin 8) (b : Fin 128) (j : Fin 33) :
    k0_pay19 (F := Ideal) (k0_pay9 v) (k0_pay11 v) (iota .tc S1x33 32 [1] hi) (ix2 (px a b) j)
      = hot (v (ix4 (0 : Fin 1) (0 : Fin 1) a b)) j := by
  rw [green_weights_of, cell9, frac11, weightOf_hot]

theorem blue_weights_of (n : IVec S1024 32) (d : FVec Ideal S1024 .f32) (hi : S1x33.Iotas .tc 32 [1])
    (p : Fin 1024) (j : Fin 33) :
    k0_pay22 (F := Ideal) n d (iota .tc S1x33 32 [1] hi) (ix2 p j) + k0_pay23 (F := Ideal) n d (iota .tc S1x33 32 [1] hi) (ix2 p j)
      = weightOf (n (ix1 p)) (one - d (ix1 p)) (d (ix1 p)) j := by
  unfold k0_pay22 k0_pay23 k0_pay20 k0_pay21
  show Scalar.select (IntOp.cmpi .eq (broadcastTo S1024x33 (iota .tc S1x33 32 [1] hi) _ (ix2 p j))
          (broadcastTo S1024x33 (shapeCast S1024x1 n _) _ (ix2 p j)))
        (broadcastTo S1024x33 (shapeCast S1024x1 (subf (broadcast S1024x1 one) (shapeCast S1024x1 d _)) _) _ (ix2 p j)) zero
      + Scalar.select (IntOp.cmpi .eq (broadcastTo S1024x33 (iota .tc S1x33 32 [1] hi) _ (ix2 p j))
          (broadcastTo S1024x33 (addi (shapeCast S1024x1 n _) (broadcast S1024x1 1#32)) _ (ix2 p j)))
        (broadcastTo S1024x33 (shapeCast S1024x1 (shapeCast S1024x1 d _) _) _ (ix2 p j)) zero = _
  rw [broadcastTo_1b_ab_apply, coordinate_row, spread_column, spread_column, spread_column, spread_column,
    shapeCast_self, shapeCast_self, column_of_vector]
  show Scalar.select (IntOp.cmpi .eq _ (n (ix1 p))) (one - shapeCast S1024x1 d _ (ix2 p (0 : Fin 1))) zero
      + Scalar.select (IntOp.cmpi .eq _ (IntOp.addi (shapeCast S1024x1 n _ (ix2 p (0 : Fin 1))) 1#32))
          (shapeCast S1024x1 d _ (ix2 p (0 : Fin 1))) zero = _
  rw [column_of_vector, column_of_vector]
  rfl

theorem blue_weights (v : Vec Ideal S1x1x8x128 .f32) (hi : S1x33.Iotas .tc 32 [1]) (a : Fin 8) (b : Fin 128) (j : Fin 33) :
    k0_pay22 (F := Ideal) (k0_pay10 v) (k0_pay12 v) (iota .tc S1x33 32 [1] hi) (ix2 (px a b) j)
      + k0_pay23 (F := Ideal) (k0_pay10 v) (k0_pay12 v) (iota .tc S1x33 32 [1] hi) (ix2 (px a b) j)
      = hot (v (ix4 (0 : Fin 1) (0 : Fin 1) a b)) j := by
  rw [blue_weights_of, cell10, frac12, weightOf_hot]

end Cert.Payload

/-! ## The contraction: a matrix product against the table, then a sum over red -/

namespace Cert.Payload

open Cert.KernelIdeal Cert.KernelIdeal.Gen Idealize.ShloMosaic Idealize.ShloMosaic.ValueIdx Cert.Trilinear Cert.Layouts

/-- A sum over the 1089 rows is a double sum over (blue, green). -/
theorem sum_rows {M : Type} [AddCommMonoid M] (f : Fin 1089 → M) :
    ∑ k : Fin 1089, f k = ∑ bl : Fin 33, ∑ g : Fin 33, f (bg bl g) := by
  rw [← Fintype.sum_prod_type' (f := fun bl g => f (bg bl g))]
  refine (Equiv.sum_comp (finProdFinEquiv (m := 33) (n := 33)) f).symm.trans ?_
  refine Finset.sum_congr rfl fun x _ => congrArg f (Fin.ext ?_)
  show x.2.val + 33 * x.1.val = x.1.val * 33 + x.2.val
  omega

/-- The sum over red of a [1024, 33, 3] array, at a pixel and a channel. -/
theorem sum_over_red (src : FVec Ideal S1024x33x3 .f32) (h : S1024x33x3.Reduces [1] S1024x3) (hφ : FKind.Formats .f32)
    (hacc : (0x00000000#32 : BitVec FTy.f32.bits) = FKind.add.neutral .f32 hφ) (p : Fin 1024) (ch : Fin 3) :
    multiReduction .add [1] S1024x3 src 0x00000000#32 h hφ hacc (ix2 p ch) = ∑ r : Fin 33, src (ix3 p r ch) := by
  refine (Ideal.multiReduction_add_single src 0x00000000#32 h hφ hacc (ix2 p ch)).trans ?_
  refine Finset.sum_congr rfl fun r _ => congrArg src ?_
  funext ax
  apply Fin.ext
  match ax with
  | ⟨0, _⟩ => rfl
  | ⟨1, _⟩ => rfl
  | ⟨2, _⟩ => rfl

/-- The matrix product of the 1089 pair weights with the table, at a pixel and a column. -/
theorem product_at (lhs : FVec Ideal S1024x1089 .bf16) (rhs : FVec Ideal S1089x99 .bf16) (p : Fin 1024) (n : Fin 99) :
    matmul dot_S1024x1089_S1089x99_S1024x99_1_0_0_1_n_n none lhs rhs (constant S1024x99 .f32 0x00000000#32) (ix2 p n)
      = ∑ bl : Fin 33, ∑ g : Fin 33, lhs (ix2 p (bg bl g)) * rhs (ix2 (bg bl g) n) := by
  refine (Ideal.matmul_constant_zero_apply dot_S1024x1089_S1089x99_S1024x99_1_0_0_1_n_n none lhs rhs (ix2 p n)).trans ?_
  rw [← Equiv.sum_comp (contrEquiv1 dot_S1024x1089_S1089x99_S1024x99_1_0_0_1_n_n 1089 rfl rfl).symm]
  refine Eq.trans ?_ (sum_rows fun k => lhs (ix2 p k) * rhs (ix2 k n))
  refine Finset.sum_congr rfl fun k _ => ?_
  have ck := contrEquiv1_symm_val dot_S1024x1089_S1089x99_S1024x99_1_0_0_1_n_n 1089 rfl rfl k
  have hl : dot_S1024x1089_S1089x99_S1024x99_1_0_0_1_n_n.lhsIdx (ix2 p n)
      ((contrEquiv1 dot_S1024x1089_S1089x99_S1024x99_1_0_0_1_n_n 1089 rfl rfl).symm k) = ix2 p k := by
    funext ax; apply Fin.ext
    match ax with
    | ⟨0, _⟩ => simp [DotDims.lhsIdx, dot_S1024x1089_S1089x99_S1024x99_1_0_0_1_n_n]; rfl
    | ⟨1, _⟩ => simp [DotDims.lhsIdx, dot_S1024x1089_S1089x99_S1024x99_1_0_0_1_n_n]; exact ck
  have hr : dot_S1024x1089_S1089x99_S1024x99_1_0_0_1_n_n.rhsIdx (ix2 p n)
      ((contrEquiv1 dot_S1024x1089_S1089x99_S1024x99_1_0_0_1_n_n 1089 rfl rfl).symm k) = ix2 k n := by
    funext ax; apply Fin.ext
    match ax with
    | ⟨0, _⟩ => simp [DotDims.rhsIdx, dot_S1024x1089_S1089x99_S1024x99_1_0_0_1_n_n]; exact ck
    | ⟨1, _⟩ => simp [DotDims.rhsIdx, dot_S1024x1089_S1089x99_S1024x99_1_0_0_1_n_n]; rfl
  rw [hl, hr]

/-- The contraction payload at a pixel and a channel: the red weights against the product of the pair weights
    with the table. -/
theorem contraction_at (wr wg wb0 wb1 : FVec Ideal S1024x33 .f32) (tbl : Vec Ideal S1089x99 .bf16) (p : Fin 1024) (ch : Fin 3) :
    k0_pay1 (F := Ideal) wr wg wb0 wb1 tbl (ix2 p ch)
      = ∑ r : Fin 33, wr (ix2 p r)
          * ∑ bl : Fin 33, ∑ g : Fin 33, ((wb0 (ix2 p bl) + wb1 (ix2 p bl)) * wg (ix2 p g)) * tbl (ix2 (bg bl g) (rc r ch)) := by
  unfold k0_pay1
  refine (sum_over_red _ _ _ _ p ch).trans ?_
  refine Finset.sum_congr rfl fun r _ => ?_
  show broadcastTo S1024x33x3 (shapeCast S1024x33x1 wr _) _ (ix3 p r ch)
      * shapeCast S1024x33x3 (matmul dot_S1024x1089_S1089x99_S1024x99_1_0_0_1_n_n none
          (truncf .bf16 (shapeCast S1024x1089 (mulf (broadcastTo S1024x33x33 (shapeCast S1024x33x1 (addf wb0 wb1) _) _)
            (broadcastTo S1024x33x33 (shapeCast S1024x1x33 wg _) _)) _) _)
          (shapeCast S1089x99 tbl _) (constant S1024x99 .f32 0x00000000#32)) _ (ix3 p r ch) = _
  rw [spread_last, last_unit, pairs_of_columns, product_at, shapeCast_self]
  refine congrArg (wr (ix2 p r) * ·) ?_
  refine Finset.sum_congr rfl fun bl _ => Finset.sum_congr rfl fun g _ => ?_
  refine congrArg (· * tbl (ix2 (bg bl g) (rc r ch))) ?_
  show shapeCast S1024x1089 (mulf (broadcastTo S1024x33x33 (shapeCast S1024x33x1 (addf wb0 wb1) _) _)
      (broadcastTo S1024x33x33 (shapeCast S1024x1x33 wg _) _)) _ (ix2 p (bg bl g)) = _
  rw [rows_of_pairs]
  show broadcastTo S1024x33x33 (shapeCast S1024x33x1 (addf wb0 wb1) _) _ (ix3 p bl g)
      * broadcastTo S1024x33x33 (shapeCast S1024x1x33 wg _) _ (ix3 p bl g) = _
  rw [spread_last, last_unit, spread_middle, middle_unit]
  rfl

/-! ## The three stores -/

theorem channel_store (o : Nat) (src : FVec Ideal S1024x3 .f32) (hs : S1024x3.Slices ![0, o] S1024x1)
    (h1 : S1024x1.ShapeCasts S1024) (h2 : S1024.ShapeCasts S8x128) (h3 : S8x128.ShapeCasts S1x1x8x128)
    (ch : Fin 3) (hch : ch.val = o) (a : Fin 8) (b : Fin 128) :
    shapeCast S1x1x8x128 (shapeCast S8x128 (shapeCast S1024 (extractStridedSlice S1024x1 ![0, o] src hs) h1) h2) h3
        (ix4 (0 : Fin 1) (0 : Fin 1) a b) = src (ix2 (px a b) ch) := by
  rw [block_of_tile, tile_of_pixels, vector_of_column, channel_column o src hs (px a b) ch hch]

end Cert.Payload

/-! ## The stored block -/

namespace Cert.Payload

open Cert.KernelIdeal Cert.KernelIdeal.Gen Idealize.ShloMosaic Idealize.ShloMosaic.ValueIdx Cert.Trilinear Cert.Layouts

theorem store0_at (wr wg wb0 wb1 : FVec Ideal S1024x33 .f32) (tbl : Vec Ideal S1089x99 .bf16) (a : Fin 8) (b : Fin 128) :
    k0_pay2 (F := Ideal) wr wg wb0 wb1 tbl (ix4 (0 : Fin 1) (0 : Fin 1) a b)
      = k0_pay1 (F := Ideal) wr wg wb0 wb1 tbl (ix2 (px a b) (0 : Fin 3)) := by
  unfold k0_pay2
  exact channel_store 0 _ _ _ _ _ (0 : Fin 3) rfl a b

theorem store1_at (wr wg wb0 wb1 : FVec Ideal S1024x33 .f32) (tbl : Vec Ideal S1089x99 .bf16) (a : Fin 8) (b : Fin 128) :
    k0_pay3 (F := Ideal) wr wg wb0 wb1 tbl (ix4 (0 : Fin 1) (0 : Fin 1) a b)
      = k0_pay1 (F := Ideal) wr wg wb0 wb1 tbl (ix2 (px a b) (1 : Fin 3)) := by
  unfold k0_pay3
  exact channel_store 1 _ _ _ _ _ (1 : Fin 3) rfl a b

theorem store2_at (wr wg wb0 wb1 : FVec Ideal S1024x33 .f32) (tbl : Vec Ideal S1089x99 .bf16) (a : Fin 8) (b : Fin 128) :
    k0_pay4 (F := Ideal) wr wg wb0 wb1 tbl (ix4 (0 : Fin 1) (0 : Fin 1) a b)
      = k0_pay1 (F := Ideal) wr wg wb0 wb1 tbl (ix2 (px a b) (2 : Fin 3)) := by
  unfold k0_pay4
  exact channel_store 2 _ _ _ _ _ (2 : Fin 3) rfl a b

/-- Where a plane's rectangle puts its local index in the block: colour coordinate \`c\`, same pixel. -/
theorem plane_index (c : Nat) (hc : c < 3) (inb : ∀ ax, (![0, c, 0, 0] : Fin 4 → Nat) ax + S1x1x8x128.size ax ≤ S1x3x8x128.size ax)
    (u0 u1 : Fin 1) (a : Fin 8) (b : Fin 128) :
    (Rect.unit (s := S1x3x8x128) ![0, c, 0, 0] S1x1x8x128.size inb).emb (ix4 u0 u1 a b)
      = ix4 (0 : Fin 1) (⟨c, hc⟩ : Fin 3) a b := by
  have h0 : u0.val = 0 := by omega
  have h1 : u1.val = 0 := by omega
  funext ax
  apply Fin.ext
  match ax with
  | ⟨0, _⟩ => simp only [Rect.emb_apply, Rect.off_unit, Rect.stride_unit, Nat.one_mul]; show 0 + u0.val = 0; omega
  | ⟨1, _⟩ => simp only [Rect.emb_apply, Rect.off_unit, Rect.stride_unit, Nat.one_mul]; show c + u1.val = c; omega
  | ⟨2, _⟩ => simp only [Rect.emb_apply, Rect.off_unit, Rect.stride_unit, Nat.one_mul]; show 0 + a.val = a.val; omega
  | ⟨3, _⟩ => simp only [Rect.emb_apply, Rect.off_unit, Rect.stride_unit, Nat.one_mul]; show 0 + b.val = b.val; omega

theorem table_offsets : (![0, 0] : Fin 2 → Nat) = fun _ => 0 := funext fun a => by fin_cases a <;> rfl

/-- One stored plane at a pixel is the weighted triple sum for its channel. -/
theorem stored_plane (x0 : Vec Ideal S1x3x8x128 .f32) (x1 : Vec Ideal S1089x99 .bf16) (ch : Fin 3) (a : Fin 8) (b : Fin 128) :
    k0_pay1 (F := Ideal)
        (k0_pay18 (k0_pay14 (View.ld x0 r0_0)) (k0_pay15 (View.ld x0 r0_0)) (k0_pay16 (View.ld x0 r0_0)) (k0_pay17 (View.ld x0 r0_0)))
        (k0_pay19 (k0_pay9 (View.ld x0 r0_1)) (k0_pay11 (View.ld x0 r0_1)) (iota .tc S1x33 32 [1] iota_S1x33_d1_w32))
        (k0_pay22 (k0_pay10 (View.ld x0 r0_2)) (k0_pay12 (View.ld x0 r0_2)) (iota .tc S1x33 32 [1] iota_S1x33_d1_w32))
        (k0_pay23 (k0_pay10 (View.ld x0 r0_2)) (k0_pay12 (View.ld x0 r0_2)) (iota .tc S1x33 32 [1] iota_S1x33_d1_w32))
        (View.ld x1 r0_3) (ix2 (px a b) ch)
      = weighted (x0 (ix4 (0 : Fin 1) (0 : Fin 3) a b)) (x0 (ix4 (0 : Fin 1) (1 : Fin 3) a b)) (x0 (ix4 (0 : Fin 1) (2 : Fin 3) a b))
          (fun bl g r => x1 (ix2 (bg bl g) (rc r ch))) := by
  rw [contraction_at]
  unfold weighted
  refine Finset.sum_congr rfl fun r _ => ?_
  rw [red_weights]
  refine congrArg₂ (· * ·) ?_ ?_
  · show hot (x0 (r0_0.emb (ix4 (0 : Fin 1) (0 : Fin 1) a b))) r = _
    rw [plane_index 0 (by omega)]
    rfl
  · refine Finset.sum_congr rfl fun bl _ => Finset.sum_congr rfl fun g _ => ?_
    rw [blue_weights, green_weights]
    refine congrArg₂ (· * ·) (congrArg₂ (· * ·) ?_ ?_) ?_
    · show hot (x0 (r0_2.emb (ix4 (0 : Fin 1) (0 : Fin 1) a b))) bl = _
      rw [plane_index 2 (by omega)]
      rfl
    · show hot (x0 (r0_1.emb (ix4 (0 : Fin 1) (0 : Fin 1) a b))) g = _
      rw [plane_index 1 (by omega)]
      rfl
    · rw [View.ld_unit_zero table_offsets]

/-- The block the body's three stores leave is the block value of the two input blocks. -/
theorem out_eq (x0 : Vec Ideal S1x3x8x128 .f32) (x1 : Vec Ideal S1089x99 .bf16) :
    out0_2 (F := Ideal) x0 x1 = blockValue x0 x1 := by
  funext y
  unfold out0_2
  refine View.canon_apply_of_pieces (Val := Elt Ideal) (blockValue x0 x1 : S1x3x8x128.Idx → Elt Ideal .f32) _ ?_ y (cover0_2 _ _ _ y)
  intro p hp
  simp only [List.mem_cons, List.not_mem_nil, or_false] at hp
  rcases hp with rfl | rfl | rfl
  · intro x
    obtain ⟨u0, u1, a, b, rfl⟩ : ∃ (u0 u1 : Fin 1) (a : Fin 8) (b : Fin 128), x = ix4 u0 u1 a b := ⟨x 0, x 1, x 2, x 3, eq_ix4 x⟩
    obtain rfl : u0 = 0 := Subsingleton.elim _ _
    obtain rfl : u1 = 0 := Subsingleton.elim _ _
    show k0_pay4 (F := Ideal) _ _ _ _ _ (ix4 (0 : Fin 1) (0 : Fin 1) a b) = blockValue x0 x1 (r0_2.emb (ix4 (0 : Fin 1) (0 : Fin 1) a b))
    rw [store2_at, stored_plane, plane_index 2 (by omega)]
    rfl
  · intro x
    obtain ⟨u0, u1, a, b, rfl⟩ : ∃ (u0 u1 : Fin 1) (a : Fin 8) (b : Fin 128), x = ix4 u0 u1 a b := ⟨x 0, x 1, x 2, x 3, eq_ix4 x⟩
    obtain rfl : u0 = 0 := Subsingleton.elim _ _
    obtain rfl : u1 = 0 := Subsingleton.elim _ _
    show k0_pay3 (F := Ideal) _ _ _ _ _ (ix4 (0 : Fin 1) (0 : Fin 1) a b) = blockValue x0 x1 (r0_1.emb (ix4 (0 : Fin 1) (0 : Fin 1) a b))
    rw [store1_at, stored_plane, plane_index 1 (by omega)]
    rfl
  · intro x
    obtain ⟨u0, u1, a, b, rfl⟩ : ∃ (u0 u1 : Fin 1) (a : Fin 8) (b : Fin 128), x = ix4 u0 u1 a b := ⟨x 0, x 1, x 2, x 3, eq_ix4 x⟩
    obtain rfl : u0 = 0 := Subsingleton.elim _ _
    obtain rfl : u1 = 0 := Subsingleton.elim _ _
    show k0_pay2 (F := Ideal) _ _ _ _ _ (ix4 (0 : Fin 1) (0 : Fin 1) a b) = blockValue x0 x1 (r0_0.emb (ix4 (0 : Fin 1) (0 : Fin 1) a b))
    rw [store0_at, stored_plane, plane_index 0 (by omega)]
    rfl

end Cert.Payload

end
-- ==== Proof.Blocks.lean ====
/-
  From what each tile writes to the whole output image.

  The grid has 8 × 128 × 8 points (batch entry, row tile, column tile), run in row-major order. At a point the
  kernel reads the tile's block of the image (one batch entry, three coordinates, 8 rows, 128 columns) and the
  whole re-laid table, and writes the tile's block of the output. A block's array coordinate on an axis is the
  block index times the block size plus the coordinate inside the block; the input and output blocks have the
  same block index, and the table's block index is zero on both axes.

  Given that the body leaves in the output block the weighted triple sum of the input block's pixels, the block
  a point writes is that point's block of one function of the whole image and table. Every index of the output
  lies in the block of the point (batch, row / 8, column / 128), so after the run the output is that function.
-/
import proofs.«131245_j52501680226537_2_alg».proof.Proof.Gen.KernelIdeal.Value
import proofs.«131245_j52501680226537_2_alg».proof.Proof.BlockValue
import Idealize.ShloMosaic.Lib.Pipeline.Value
import Idealize.ShloMosaic.Lib.ValueIdx

set_option maxRecDepth 16384

noncomputable section

namespace Cert.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The block sum and the image sum agree at a block index and an image index whenever the block's three
    coordinates there are the image's, the channels are equal, and the two tables are. -/
theorem blockValue_eq_arrayValue (x0 : Cert.Trilinear.SBlock.Idx → EReal) (x1 tbl : Cert.Trilinear.SRows.Idx → EReal)
    (x : Cert.Trilinear.SImage.Idx → EReal) (y : Cert.Trilinear.SBlock.Idx) (i : Cert.Trilinear.SImage.Idx)
    (hx : ∀ k : Fin 3, x0 (ix4 (0 : Fin 1) k (y 2) (y 3)) = x (ix4 (i 0) k (i 2) (i 3)))
    (hc : (y 1 : Fin 3) = (i 1 : Fin 3)) (ht : x1 = tbl) :
    Cert.Trilinear.blockValue x0 x1 y = Cert.Trilinear.arrayValue x tbl i := by
  unfold Cert.Trilinear.blockValue Cert.Trilinear.arrayValue
  rw [hx 0, hx 1, hx 2, hc, ht]

/-- What a grid point writes back is its block of the image-wide weighted sum: at block index j the block's
    three coordinates are the image's at the array index j embeds to, the channel is the same (the block index
    on the channel axis is zero), and the table block is the whole table. -/
theorem flushed_eq
    (hout : ∀ (x0 : Vec Ideal S1x3x8x128 .f32) (x1 : Vec Ideal S1089x99 .bf16), out0_2 (F := Ideal) x0 x1 = Cert.Trilinear.blockValue x0 x1)
    (c : Dev nD) (t : Fin cfg0.N) :
    (dats m 0 c).flushed 2 t = ((cfg0.win 2).blk t).view.read (Elt Ideal)
      (Cert.Trilinear.arrayValue (V m c main_arg2) (V m c main_v2)) := by
  show (cfg0.win 2).cut (grid0.coords t) ((dats m 0 c).after 2 t) = _
  rw [after0_2, hout]
  funext j
  show Cert.Trilinear.blockValue (iblk m c 0 t) (iblk m c 1 t) ((cfg0.win 2).xinj (grid0.coords t) j)
    = Cert.Trilinear.arrayValue (V m c main_arg2) (V m c main_v2) (((cfg0.win 2).blk t).view.emb j)
  have hj0 : (j 0).val < 1 := (j 0).isLt
  have hj1 : (j 1).val < 3 := (j 1).isLt
  have hj2 : (j 2).val < 8 := (j 2).isLt
  have hj3 : (j 3).val < 128 := (j 3).isLt
  refine blockValue_eq_arrayValue _ _ _ _ _ _ (fun k => ?_) ?_ ?_
  · show V m c main_arg2 (((cfg0.win 0).blk t).view.emb (ix4 (0 : Fin 1) k _ _)) = _
    refine congrArg (V m c main_arg2) (funext fun a => Fin.ext ?_)
    match a with
    | ⟨0, _⟩ => show win0_0.index t (0 : Fin 4) * 1 + 1 * 0 = win0_2.index t (0 : Fin 4) * 1 + 1 * (j 0).val; have e : win0_0.index t (0 : Fin 4) = win0_2.index t (0 : Fin 4) := rfl; omega
    | ⟨1, _⟩ => show win0_0.index t (1 : Fin 4) * 3 + 1 * k.val = k.val; have e : win0_0.index t (1 : Fin 4) = 0 := rfl; omega
    | ⟨2, _⟩ => show win0_0.index t (2 : Fin 4) * 8 + 1 * (j 2).val = win0_2.index t (2 : Fin 4) * 8 + 1 * (j 2).val; have e : win0_0.index t (2 : Fin 4) = win0_2.index t (2 : Fin 4) := rfl; omega
    | ⟨3, _⟩ => show win0_0.index t (3 : Fin 4) * 128 + 1 * (j 3).val = win0_2.index t (3 : Fin 4) * 128 + 1 * (j 3).val; have e : win0_0.index t (3 : Fin 4) = win0_2.index t (3 : Fin 4) := rfl; omega
  · apply Fin.ext
    show (j 1).val = win0_2.index t (1 : Fin 4) * 3 + 1 * (j 1).val
    have e : win0_2.index t (1 : Fin 4) = 0 := rfl
    omega
  · funext y
    show V m c main_v2 (((cfg0.win 1).blk t).view.emb y) = V m c main_v2 y
    refine congrArg (V m c main_v2) (funext fun a => Fin.ext ?_)
    match a with
    | ⟨0, _⟩ => show win0_1.index t (0 : Fin 2) * 1089 + 1 * (y 0).val = (y 0).val; have e : win0_1.index t (0 : Fin 2) = 0 := rfl; omega
    | ⟨1, _⟩ => show win0_1.index t (1 : Fin 2) * 99 + 1 * (y 1).val = (y 1).val; have e : win0_1.index t (1 : Fin 2) = 0 := rfl; omega

/-! ## The output block of a point -/

/-- An index of the output lies in a point's block exactly when each coordinate lies in the block's range on
    its axis. -/
theorem mem_block (t : Fin cfg0.N) (i : S8x3x1024x1024.Idx) :
    i ∈ ((cfg0.win 2).blk t).view.set ↔ ∀ a : Fin 4, win0_2.index t a * S1x3x8x128.size a ≤ (i a).val
      ∧ (i a).val < win0_2.index t a * S1x3x8x128.size a + S1x3x8x128.size a := by
  show i ∈ ((View.whole main_v3).slice (win0_2.rect t)).set ↔ _
  rw [View.set_slice_whole, Rect.mem_set_unit]
  exact Iff.rfl

/-- The grid has 8192 points. -/
theorem points : cfg0.N = 8192 := N_0

/-- Consecutive points share a batch entry 1024 at a time, a row tile 8 at a time, a column tile one at a time. -/
theorem stride_batch : grid0.stride (0 : Fin 3) = 1024 := by decide
theorem stride_row : grid0.stride (1 : Fin 3) = 8 := by decide
theorem stride_col : grid0.stride (2 : Fin 3) = 1 := by decide

/-- The output block's index at the point numbered t: batch entry t / 1024, channel block 0, row tile
    t / 8 mod 128, column tile t mod 8. -/
theorem index_batch (t : Fin cfg0.N) : win0_2.index t (0 : Fin 4) = t.val / 1024 := by
  have ht : t.val < 8192 := points ▸ t.isLt
  show (BitVec.ofNat 32 (t.val / grid0.stride (0 : Fin 3) % 8)).toNat = _
  rw [BitVec.toNat_ofNat, stride_batch]
  omega
theorem index_chan (t : Fin cfg0.N) : win0_2.index t (1 : Fin 4) = 0 := rfl
theorem index_row (t : Fin cfg0.N) : win0_2.index t (2 : Fin 4) = t.val / 8 % 128 := by
  show (BitVec.ofNat 32 (t.val / grid0.stride (1 : Fin 3) % 128)).toNat = _
  rw [BitVec.toNat_ofNat, stride_row]
  omega
theorem index_col (t : Fin cfg0.N) : win0_2.index t (3 : Fin 4) = t.val % 8 := by
  show (BitVec.ofNat 32 (t.val / grid0.stride (2 : Fin 3) % 8)).toNat = _
  rw [BitVec.toNat_ofNat, stride_col]
  omega

/-- Every index of the output lies in the block of the point (batch, row / 8, column / 128), numbered
    batch · 1024 + (row / 8) · 8 + column / 128. -/
theorem covered (i : S8x3x1024x1024.Idx) :
    ∃ t : Fin cfg0.N, (cfg0.win 2).flush t = true ∧ i ∈ ((cfg0.win 2).blk t).view.set := by
  have hi0 : (i 0).val < 8 := (i 0).isLt
  have hi1 : (i 1).val < 3 := (i 1).isLt
  have hi2 : (i 2).val < 1024 := (i 2).isLt
  have hi3 : (i 3).val < 1024 := (i 3).isLt
  let t : Fin cfg0.N := ⟨(i 0).val * 1024 + (i 2).val / 8 * 8 + (i 3).val / 128, by rw [points]; omega⟩
  have htv : t.val = (i 0).val * 1024 + (i 2).val / 8 * 8 + (i 3).val / 128 := rfl
  refine ⟨t, flush0_2 t, ?_⟩
  rw [mem_block]
  intro a
  match a with
  | ⟨0, _⟩ =>
    show win0_2.index t (0 : Fin 4) * 1 ≤ (i 0).val ∧ (i 0).val < win0_2.index t (0 : Fin 4) * 1 + 1
    rw [index_batch, htv]; omega
  | ⟨1, _⟩ =>
    show win0_2.index t (1 : Fin 4) * 3 ≤ (i 1).val ∧ (i 1).val < win0_2.index t (1 : Fin 4) * 3 + 3
    rw [index_chan]; omega
  | ⟨2, _⟩ =>
    show win0_2.index t (2 : Fin 4) * 8 ≤ (i 2).val ∧ (i 2).val < win0_2.index t (2 : Fin 4) * 8 + 8
    rw [index_row, htv]; omega
  | ⟨3, _⟩ =>
    show win0_2.index t (3 : Fin 4) * 128 ≤ (i 3).val ∧ (i 3).val < win0_2.index t (3 : Fin 4) * 128 + 128
    rw [index_col, htv]; omega

/-! ## The whole output -/

/-- After the run the output array is the image-wide weighted sum of the image and the re-laid table as the
    region finds them. -/
theorem final
    (hout : ∀ (x0 : Vec Ideal S1x3x8x128 .f32) (x1 : Vec Ideal S1089x99 .bf16), out0_2 (F := Ideal) x0 x1 = Cert.Trilinear.blockValue x0 x1)
    (c : Dev nD) :
    (dats m 0 c).arrAt 2 cfg0.N = Cert.Trilinear.arrayValue (V m c main_arg2) (V m c main_v2) :=
  (dats m 0 c).arrAt_eq_of_cover 2 (Cert.Trilinear.arrayValue (V m c main_arg2) (V m c main_v2))
    (fun t _ => flushed_eq m hout c t) covered

/-- The run: the output holds the image-wide weighted sum, the three arguments are unchanged. -/
theorem run
    (hout : ∀ (x0 : Vec Ideal S1x3x8x128 .f32) (x1 : Vec Ideal S1089x99 .bf16), out0_2 (F := Ideal) x0 x1 = Cert.Trilinear.blockValue x0 x1) :
    θ_run defs (onTc (τ := τ) (main (F := Ideal))) ⟨m, fun _ => 0, ρ⟩ fun r => ∀ c : Dev nD,
      r.2.mem ((c : Thread nD τ).loc main_v3) = Cert.Trilinear.arrayValue (V m c main_arg2) (V m c main_v2)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m hout c), (h c).2⟩) (Cert.KernelIdeal.Value.run_blocks m ρ)

end Cert.Blocks

end
-- ==== Proof.TableRows.lean ====
/-
  The table as the kernel's region finds it.

  Before the region the program rearranges the table: the channel axis is moved last (entry (blue, green, red,
  channel) of the new array is entry (channel, blue, green, red) of the table), the result is laid out as 1089 rows
  of 99 columns in the same row-major order, and the entries are converted to the narrower float format, which
  over the extended reals changes nothing. An entry's row-major position ((blue · 33 + green) · 33 + red) · 3 + channel
  equals row · 99 + column exactly when row = 33 · blue + green and column = 3 · red + channel. So the entry in
  row k and column n is the table's entry at channel n mod 3, blue k / 33, green k mod 33, red n / 3.
-/
import proofs.«131245_j52501680226537_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.TableRows

open Idealize.ShloMosaic Idealize.ShloMosaic.TcCoe Idealize.ShloMosaic.ValueIdx Idealize.SL.Sem
open Cert.KernelIdeal

variable (m : (ℓ : Loc nD τ sig) → Buf (Elt Ideal) ℓ) (c : Dev nD)

/-- The region's second operand is the table with its channel axis moved last, laid out as 1089 × 99, and
    converted: the three rearrangements composed, applied to the table as launched. -/
theorem v2_eq :
    @Eq (FVec Ideal S1089x99 .bf16) (Cert.KernelIdeal.Gen.V m c Cert.KernelIdeal.main_v2)
      <| truncf .bf16 (shapeCast S1089x99 (transpose S33x33x33x3 [1, 2, 3, 0]
          (m ((c : Thread nD τ).loc main_arg1) : FVec Ideal S3x33x33x33 .f32) Facts₀.transposes_S3x33x33x33_S33x33x33x3_1_2_3_0)
          Facts₀.shapeCasts_S33x33x33x3_S1089x99) Facts₀.bitsLt_bf16_f32 := by
  dsimp only [Gen.V, Gen.hostOps0]
  after_results
  rfl

/-- Row k = 33 · blue + green, column n = 3 · red + channel: the entry there is the table's entry at
    (channel, blue, green, red) = (n mod 3, k / 33, k mod 33, n / 3). -/
theorem table_rows (k : Fin 1089) (n : Fin 99) :
    (Cert.KernelIdeal.Gen.V m c Cert.KernelIdeal.main_v2 : Cert.KernelIdeal.S1089x99.Idx → EReal) (ix2 k n)
      = (m ((c : Thread nD τ).loc Cert.KernelIdeal.main_arg1) : Cert.KernelIdeal.S3x33x33x33.Idx → EReal)
          (ix4 (⟨n.val % 3, by omega⟩ : Fin 3) (⟨k.val / 33, by omega⟩ : Fin 33) (⟨k.val % 33, by omega⟩ : Fin 33)
            (⟨n.val / 3, by omega⟩ : Fin 33)) := by
  have e := congrFun (v2_eq m c) (ix2 k n)
  refine e.trans ?_
  -- the conversion is the identity on extended reals
  rw [truncf_apply]
  -- the 1089 × 99 layout at (k, n) is the four-axis array at the index with the same row-major position
  refine (shapeCast_apply _ _ (ix2 k n)
    (ix4 (⟨k.val / 33, by omega⟩ : Fin 33) (⟨k.val % 33, by omega⟩ : Fin 33) (⟨n.val / 3, by omega⟩ : Fin 33)
      (⟨n.val % 3, by omega⟩ : Fin 3)) ?_).trans ?_
  · rw [Shape.rowMajor_val_two, Shape.rowMajor_val_four]
    show ((k.val / 33 * 33 + k.val % 33) * 33 + n.val / 3) * 3 + n.val % 3 = k.val * 99 + n.val
    omega
  -- moving the channel axis last: result axes 0, 1, 2, 3 are the table's axes 1, 2, 3, 0
  · exact transpose_apply _ _ _ _ _ (fun b => match b with
      | ⟨0, _⟩ => rfl
      | ⟨1, _⟩ => rfl
      | ⟨2, _⟩ => rfl
      | ⟨3, _⟩ => rfl)

end Cert.TableRows

end
-- ==== Proof.Corners.lean ====
/-
  The kernel's contraction is the eight-corner sum.

  The kernel weights every table entry: it sums, over red, the red weight times the sum over (blue, green)
  of the product of the blue and green weights times the entry. Each weight vanishes away from its two
  nodes, so the triple sum has eight non-zero terms; with every number real the distributive law turns it
  into the eight-corner sum. The extended reals do not distribute in general, so the sum is first carried
  to the real numbers (every weight and every table entry is real), computed there, and carried back.
-/
import proofs.«131245_j52501680226537_2_alg».proof.Proof.Weights

noncomputable section

namespace Cert.Trilinear

open Idealize.ShloMosaic Idealize.ShloMosaic.ValueIdx

/-- The real numbers sit in the extended reals additively over any finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum against a real weight: the two nodes' terms. -/
theorem sum_hotR {A : Nat} (hA : A ≤ 31) (d : ℝ) (M : Fin 33 → ℝ) :
    ∑ j : Fin 33, hotR A d j * M j = (1 - d) * M ⟨A, by omega⟩ + d * M ⟨A + 1, by omega⟩ := by
  unfold hotR
  simp only [add_mul, Finset.sum_add_distrib, ite_mul, zero_mul]
  have e1 : ∀ j : Fin 33, (j.val = A) = (j = ⟨A, by omega⟩) := fun j => by
    apply propext; constructor
    · intro h; exact Fin.ext h
    · intro h; rw [h]
  have e2 : ∀ j : Fin 33, (j.val = A + 1) = (j = ⟨A + 1, by omega⟩) := fun j => by
    apply propext; constructor
    · intro h; exact Fin.ext h
    · intro h; rw [h]
  simp only [e1, e2, Finset.sum_ite_eq', Finset.mem_univ, if_true]

/-- The kernel's triple sum, every number real, is the eight-corner sum (over the reals). -/
theorem contract_real {A B C : Nat} (hA : A ≤ 31) (hB : B ≤ 31) (hC : C ≤ 31) (dr dg db : ℝ) (T : Fin 33 → Fin 33 → Fin 33 → ℝ) :
    ∑ r : Fin 33, hotR A dr r * ∑ bl : Fin 33, ∑ g : Fin 33, (hotR C db bl * hotR B dg g) * T bl g r
    = (((1 - dr) * (1 - dg)) * (1 - db)) * T ⟨C, by omega⟩ ⟨B, by omega⟩ ⟨A, by omega⟩
      + ((dr * (1 - dg)) * (1 - db)) * T ⟨C, by omega⟩ ⟨B, by omega⟩ ⟨A + 1, by omega⟩
      + (((1 - dr) * dg) * (1 - db)) * T ⟨C, by omega⟩ ⟨B + 1, by omega⟩ ⟨A, by omega⟩
      + ((dr * dg) * (1 - db)) * T ⟨C, by omega⟩ ⟨B + 1, by omega⟩ ⟨A + 1, by omega⟩
      + (((1 - dr) * (1 - dg)) * db) * T ⟨C + 1, by omega⟩ ⟨B, by omega⟩ ⟨A, by omega⟩
      + ((dr * (1 - dg)) * db) * T ⟨C + 1, by omega⟩ ⟨B, by omega⟩ ⟨A + 1, by omega⟩
      + (((1 - dr) * dg) * db) * T ⟨C + 1, by omega⟩ ⟨B + 1, by omega⟩ ⟨A, by omega⟩
      + ((dr * dg) * db) * T ⟨C + 1, by omega⟩ ⟨B + 1, by omega⟩ ⟨A + 1, by omega⟩ := by
  have inner : ∀ r : Fin 33, ∑ bl : Fin 33, ∑ g : Fin 33, (hotR C db bl * hotR B dg g) * T bl g r
      = (1 - db) * ((1 - dg) * T ⟨C, by omega⟩ ⟨B, by omega⟩ r + dg * T ⟨C, by omega⟩ ⟨B + 1, by omega⟩ r)
        + db * ((1 - dg) * T ⟨C + 1, by omega⟩ ⟨B, by omega⟩ r + dg * T ⟨C + 1, by omega⟩ ⟨B + 1, by omega⟩ r) := by
    intro r
    have h1 : ∀ bl : Fin 33, ∑ g : Fin 33, (hotR C db bl * hotR B dg g) * T bl g r
        = hotR C db bl * ((1 - dg) * T bl ⟨B, by omega⟩ r + dg * T bl ⟨B + 1, by omega⟩ r) := by
      intro bl
      rw [← sum_hotR hB dg (fun g => T bl g r), Finset.mul_sum]
      exact Finset.sum_congr rfl fun g _ => by ring
    simp only [h1]
    exact sum_hotR hC db _
  simp only [inner]
  rw [sum_hotR hA dr]
  ring

end Cert.Trilinear

namespace Cert.Trilinear

open Idealize.ShloMosaic Idealize.ShloMosaic.ValueIdx

theorem node_eq {n : Nat} (h : n ≤ 32) : node n = ⟨n, by omega⟩ := Fin.ext (min_eq_left h)

theorem toNat_word {n : Nat} (h : n ≤ 31) : (BitVec.ofNat 32 n).toNat = n := by
  rw [BitVec.toNat_ofNat]; exact Nat.mod_eq_of_lt (by omega)

/-- The kernel's weighted triple sum over a real table, at three coordinates whose cells are among 0 … 31 and
    whose offsets are real, is the eight-corner sum. -/
theorem contract_eq_tri (L : Fin 33 → Fin 33 → Fin 33 → EReal) (hL : ∀ b g r, ∃ t : ℝ, L b g r = (t : EReal))
    {xr xg xb : EReal}
    (fr : ∃ (n : Nat) (d : ℝ), n ≤ 31 ∧ cell xr = BitVec.ofNat 32 n ∧ frac xr = (d : EReal))
    (fg : ∃ (n : Nat) (d : ℝ), n ≤ 31 ∧ cell xg = BitVec.ofNat 32 n ∧ frac xg = (d : EReal))
    (fb : ∃ (n : Nat) (d : ℝ), n ≤ 31 ∧ cell xb = BitVec.ofNat 32 n ∧ frac xb = (d : EReal)) :
    ∑ r : Fin 33, hot xr r * ∑ bl : Fin 33, ∑ g : Fin 33, (hot xb bl * hot xg g) * L bl g r = tri L xr xg xb := by
  obtain ⟨A, dr, hA, hcr, hdr⟩ := fr
  obtain ⟨B, dg, hB, hcg, hdg⟩ := fg
  obtain ⟨C, db, hC, hcb, hdb⟩ := fb
  choose T hT using hL
  have inner : ∀ r : Fin 33, (∑ bl : Fin 33, ∑ g : Fin 33, (hot xb bl * hot xg g) * L bl g r)
      = ((∑ bl : Fin 33, ∑ g : Fin 33, (hotR C db bl * hotR B dg g) * T bl g r : ℝ) : EReal) := by
    intro r
    rw [coe_sum]
    refine Finset.sum_congr rfl fun bl _ => ?_
    rw [coe_sum]
    refine Finset.sum_congr rfl fun g _ => ?_
    rw [hot_eq hC hcb hdb, hot_eq hB hcg hdg, hT, EReal.coe_mul, EReal.coe_mul]
  have lhs : (∑ r : Fin 33, hot xr r * ∑ bl : Fin 33, ∑ g : Fin 33, (hot xb bl * hot xg g) * L bl g r)
      = ((∑ r : Fin 33, hotR A dr r * ∑ bl : Fin 33, ∑ g : Fin 33, (hotR C db bl * hotR B dg g) * T bl g r : ℝ) : EReal) := by
    rw [coe_sum]
    refine Finset.sum_congr rfl fun r _ => ?_
    rw [hot_eq hA hcr hdr, inner r, EReal.coe_mul]
  rw [lhs, contract_real hA hB hC]
  unfold tri
  rw [hcr, hcg, hcb, hdr, hdg, hdb, one_eq, toNat_word hA, toNat_word hB, toNat_word hC,
    node_eq (show A ≤ 32 by omega), node_eq (show B ≤ 32 by omega), node_eq (show C ≤ 32 by omega),
    node_eq (show A + 1 ≤ 32 by omega), node_eq (show B + 1 ≤ 32 by omega), node_eq (show C + 1 ≤ 32 by omega)]
  simp only [hT, EReal.coe_add, EReal.coe_mul, EReal.coe_sub]

end Cert.Trilinear

end
-- ==== Proof.Bridge.lean ====
/-
  The kernel's whole-array value is the eight-corner interpolation.

  The kernel reads the table re-laid as 1089 rows (33 · blue + green) by 99 columns (3 · red + channel) and, for every
  pixel and channel, sums over red the red weight times the sum over (blue, green) of the product of the blue and
  green weights times the entry. Splitting a row number back into (blue, green) and a column number back into
  (red, channel) shows that the entry the sum meets at (blue, green, red) is the table's own entry of that channel,
  and the weighted triple sum over a table of real entries, at coordinates in [0, 1), is the eight-corner sum.
-/
import proofs.«131245_j52501680226537_2_alg».proof.Proof.Gen.KernelIdeal.Frame
import proofs.«131245_j52501680226537_2_alg».proof.Proof.TableRows
import proofs.«131245_j52501680226537_2_alg».proof.Proof.Corners
import proofs.«131245_j52501680226537_2_alg».proof.Proof.BlockValue
import Idealize.ShloMosaic.Lib.ValueIdx

noncomputable section

namespace Cert.Bridge

open Cert.KernelIdeal Cert.KernelIdeal.Gen Idealize.ShloMosaic Idealize.ShloMosaic.TcCoe Idealize.ShloMosaic.ValueIdx
open Cert.Trilinear Cert.Layouts Idealize.SL.Sem

variable (m : (ℓ : Loc nD τ sig) → Buf (Elt Ideal) ℓ) (c : Dev nD)

/-- The re-laid table at row 33 · blue + green and column 3 · red + channel is the table's entry at
    (channel, blue, green, red): the row and column numbers split back into their parts. -/
theorem table_entry (bl g r : Fin 33) (ch : Fin 3) :
    (V m c main_v2 : S1089x99.Idx → EReal) (ix2 (bg bl g) (rc r ch))
      = (m ((c : Thread nD τ).loc main_arg1) : S3x33x33x33.Idx → EReal) (ix4 ch bl g r) := by
  refine (Cert.TableRows.table_rows m c (bg bl g) (rc r ch)).trans (congrArg _ ?_)
  funext a
  match a with
  | ⟨0, _⟩ => exact Fin.ext (by show (r.val * 3 + ch.val) % 3 = ch.val; omega)
  | ⟨1, _⟩ => exact Fin.ext (by show (bl.val * 33 + g.val) / 33 = bl.val; omega)
  | ⟨2, _⟩ => exact Fin.ext (by show (bl.val * 33 + g.val) % 33 = g.val; omega)
  | ⟨3, _⟩ => exact Fin.ext (by show (r.val * 3 + ch.val) / 3 = r.val; omega)

/-- THE KERNEL'S WHOLE-ARRAY VALUE: for a table of real entries and an image with every coordinate in [0, 1), the
    weighted triple sum over the re-laid table is the eight-corner interpolation of the table, entry by entry. -/
theorem array_eq (hlut : Cert.Trilinear.Finite (m ((c : Thread nD τ).loc main_arg1)))
    (hx : Cert.Trilinear.InUnit (m ((c : Thread nD τ).loc main_arg2))) :
    Cert.Trilinear.arrayValue (V m c main_arg2) (V m c main_v2)
      = Cert.Trilinear.G (m ((c : Thread nD τ).loc main_arg1)) (m ((c : Thread nD τ).loc main_arg2)) := by
  funext i
  obtain ⟨b, ch, h, w, rfl⟩ : ∃ (b : Fin 8) (ch : Fin 3) (h w : Fin 1024), i = ix4 b ch h w :=
    ⟨i 0, i 1, i 2, i 3, eq_ix4 i⟩
  rw [V_main_arg2]
  show Cert.Trilinear.weighted _ _ _
      (fun bl g r => (V m c main_v2 : S1089x99.Idx → EReal) (ix2 (bg bl g) (rc r ch)))
    = Cert.Trilinear.tri (fun bl g r => (m ((c : Thread nD τ).loc main_arg1) : S3x33x33x33.Idx → EReal) (ix4 ch bl g r))
        _ _ _
  have hT : (fun bl g r => (V m c main_v2 : S1089x99.Idx → EReal) (ix2 (bg bl g) (rc r ch)))
      = fun bl g r => (m ((c : Thread nD τ).loc main_arg1) : S3x33x33x33.Idx → EReal) (ix4 ch bl g r) := by
    funext bl g r; exact table_entry m c bl g r ch
  rw [hT]
  exact Cert.Trilinear.contract_eq_tri _ (fun _ _ _ => hlut _) (hx.facts _) (hx.facts _) (hx.facts _)

end Cert.Bridge

end
-- ==== Proof.RefValue.lean ====
/-
  The reference program's result, read entry by entry, is the eight-corner interpolation of the table.

  The reference splits the image into its three colour planes, divides each by the cell width, takes the integer
  part (the cell) and the remainder (the offset), and forms for every pixel the flat position
  red cell + 33 · green cell + 33 · 33 · blue cell of its cell in the table flattened to 3 × 35937. For each of the
  eight corners it adds the corner's offset (0, 1, 33, 34, 1089, 1090, 1122, 1123) to the flat position, moves a
  negative position up by the table's length, reads all three channels of the flattened table there, and multiplies
  by the product of the three one-dimensional weights; the result is the sum of the eight products.

  For a coordinate in [0, 1) the cell is one of 0 … 31, so every position is below 35937: nothing wraps in 32-bit
  arithmetic, no position is negative, the clamp of the read does nothing, and dividing the position by 1089 and 33
  gives back the corner's three table coordinates. Everything else is bookkeeping of indices through slices, shape
  changes, broadcasts, a transpose and the indexed read.
-/
import proofs.«131245_j52501680226537_2_alg».proof.Proof.Gen.ReferenceIdeal.Run
import proofs.«131245_j52501680226537_2_alg».proof.Proof.Trilinear
import Idealize.ShloMosaic.Lib.ValueIdx
import Idealize.ShloMosaic.Lib.Pipeline.Value
import Idealize.ShloMosaic.Lib.IdealHost
import Idealize.ShloMosaic.Lib.ValueLayout
import Idealize.ShloMosaic.PureOps.Ideal

noncomputable section

namespace Cert.RefValue

open Cert.ReferenceIdeal Cert.ReferenceIdeal.Gen Cert.ReferenceIdeal.Value Idealize.ShloMosaic Idealize.ShloMosaic.TcCoe Idealize.SL.Sem Idealize.ShloMosaic.StableHlo Idealize.ShloMosaic.ValueIdx

/-- The gather's dimension numbers: the table `[3, 35937]` read at `[8, 1024, 1024, 1]` flat positions, all three
    channels at once. -/
abbrev gd : GatherDims S3x35937 S8x1024x1024x1 S3x8x1024x1024 := gather_S3x35937_S8x1024x1024x1_S3x8x1024x1024_0_1_n_n_1_3_31

/-- The gather read at (channel, batch, row, column): the table's row `channel` at the flat position stored for
    the pixel, read as a signed number and clamped into the table. -/
theorem gather_apply {α : Type} (tbl : S3x35937.Idx → α) (idx : IVec S8x1024x1024x1 32)
    (ch : Fin 3) (b : Fin 8) (h w : Fin 1024) :
    Host.gather gd tbl idx (ix4 ch b h w)
      = tbl (ix2 ch ⟨min (idx (ix4 b h w (0 : Fin 1))).toInt.toNat 35936, by omega⟩) := by
  unfold Host.gather
  congr 1
  funext a
  refine Fin.ext ?_
  match a with
  | ⟨0, _⟩ =>
    show gd.start (ix4 ch b h w) idx 0 + gd.batchCoord (ix4 ch b h w) 0 + gd.offCoord (ix4 ch b h w) 0 = ch.val
    rw [GatherDims.batchCoord_eq_zero _ _ _ List.not_mem_nil]
    have hs : gd.start (ix4 ch b h w) idx 0 = 0 := by
      unfold GatherDims.start
      rw [dif_neg (by decide)]
    rw [hs]
    simp only [Nat.add_zero, Nat.zero_add]
    unfold GatherDims.offCoord
    rw [dif_pos (by decide)]
    rfl
  | ⟨1, _⟩ =>
    show gd.start (ix4 ch b h w) idx 1 + gd.batchCoord (ix4 ch b h w) 1 + gd.offCoord (ix4 ch b h w) 1 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (1 : Fin 2) ∈ gd.startIndexMap from List.mem_singleton.mpr rfl)]
    have hsi : gd.siIdx (ix4 ch b h w) ⟨List.idxOf (1 : Fin 2) gd.startIndexMap,
        List.idxOf_lt_length_iff.2 (List.mem_singleton.mpr rfl)⟩ = ix4 b h w (0 : Fin 1) := by
      funext c; refine Fin.ext ?_
      match c with
      | ⟨0, _⟩ => rfl
      | ⟨1, _⟩ => rfl
      | ⟨2, _⟩ => rfl
      | ⟨3, _⟩ => rfl
    rw [hsi]
    rfl

/-- The table flattened to `[3, 35937]`: position `p` of a channel's row is the entry (p / 1089, p / 33 mod 33, p mod 33). -/
theorem table_apply {α : Type} (lut : S3x33x33x33.Idx → α) (hc : S3x33x33x33.ShapeCasts S3x35937)
    (ch : Fin 3) (p : Nat) (hp : p < 35937) :
    shapeCast S3x35937 lut hc (ix2 ch ⟨p, hp⟩)
      = lut (ix4 ch (⟨p / 1089, by omega⟩ : Fin 33) (⟨p / 33 % 33, by omega⟩ : Fin 33) (⟨p % 33, by omega⟩ : Fin 33)) := by
  refine shapeCast_apply lut hc _ _ ?_
  rw [Shape.rowMajor_val_four, Shape.rowMajor_val_two]
  show ((ch.val * 33 + p / 1089) * 33 + p / 33 % 33) * 33 + p % 33 = ch.val * 35937 + p
  omega

/-- One corner's summand read at (batch, channel, row, column): the pixel's weight times the table's row
    `channel` at the pixel's flat position (a negative position moved up by the table's length, then read signed
    and clamped). Pure layout: two broadcasts of the weight, a transpose, the gather, a broadcast of the position. -/
theorem corner_read (tbl : FVec Ideal S3x35937 .f32) (W : FVec Ideal S8x1024x1024 .f32) (I : IVec S8x1024x1024 32)
    (h1 : S8x1x1024x1024.BroadcastsInDim S8x3x1024x1024 (![0, 1, 2, 3] : Fin 4 → Fin S8x3x1024x1024.rank))
    (h2 : S8x1024x1024.BroadcastsInDim S8x1x1024x1024 (![0, 2, 3] : Fin 3 → Fin S8x1x1024x1024.rank))
    (h3 : S8x1024x1024.BroadcastsInDim S8x1024x1024x1 (![0, 1, 2] : Fin 3 → Fin S8x1024x1024x1.rank))
    (h4 : S_.BroadcastsInDim S8x1024x1024 (![] : Fin 0 → Fin S8x1024x1024.rank))
    (h5 : S3x8x1024x1024.Transposes [1, 0, 2, 3] S8x3x1024x1024)
    (b : Fin 8) (ch : Fin 3) (h w : Fin 1024) :
    mulf (broadcastInDim S8x3x1024x1024 ![0, 1, 2, 3] h1 (broadcastInDim S8x1x1024x1024 ![0, 2, 3] h2 W))
      (transpose S8x3x1024x1024 [1, 0, 2, 3] (Host.gather gd tbl (broadcastInDim S8x1024x1024x1 ![0, 1, 2] h3
        (select (cmpi .slt I (broadcastInDim S8x1024x1024 ![] h4 (constantI S_ 32 0#32)))
          (addi I (broadcastInDim S8x1024x1024 ![] h4 (constantI S_ 32 35937#32))) I))) h5) (ix4 b ch h w)
    = W (ix3 b h w) * tbl (ix2 ch ⟨min (Scalar.select (IntOp.cmpi .slt (I (ix3 b h w)) 0#32)
        (IntOp.addi (I (ix3 b h w)) 35937#32) (I (ix3 b h w))).toInt.toNat 35936, by omega⟩) := by
  rw [mulf_apply]
  congr 1
  · rw [broadcastInDim_apply _ h1 _ _ (ix4 b (0 : Fin 1) h w) (fun a => by
      match a with
      | ⟨0, _⟩ => rfl
      | ⟨1, _⟩ => rfl
      | ⟨2, _⟩ => rfl
      | ⟨3, _⟩ => rfl)]
    rw [broadcastInDim_apply _ h2 _ _ (ix3 b h w) (fun a => by
      match a with
      | ⟨0, _⟩ => rfl
      | ⟨1, _⟩ => rfl
      | ⟨2, _⟩ => rfl)]
  · rw [transpose_apply _ _ h5 _ (ix4 ch b h w) (fun a => by
      match a with
      | ⟨0, _⟩ => rfl
      | ⟨1, _⟩ => rfl
      | ⟨2, _⟩ => rfl
      | ⟨3, _⟩ => rfl)]
    rw [gather_apply]
    refine congrArg tbl (congrArg (ix2 ch) (Fin.ext ?_))
    show min (BitVec.toInt _).toNat 35936 = min (BitVec.toInt _).toNat 35936
    rw [broadcastInDim_apply _ h3 _ _ (ix3 b h w) (fun a => by
      match a with
      | ⟨0, _⟩ => rfl
      | ⟨1, _⟩ => rfl
      | ⟨2, _⟩ => rfl)]
    rfl

/-! ## The flat position as a 32-bit word -/

/-- The flat position of a corner: cells `A, B, C ≤ 31` and a corner offset `off ≤ 1123` combine without wrapping. -/
theorem flat_word (A B C off : Nat) :
    IntOp.addi (IntOp.addi (IntOp.addi (BitVec.ofNat 32 A) (IntOp.muli (BitVec.ofNat 32 B) 33#32))
      (IntOp.muli (IntOp.muli (BitVec.ofNat 32 C) 33#32) 33#32)) (BitVec.ofNat 32 off)
    = BitVec.ofNat 32 (A + 33 * B + 1089 * C + off) := by
  unfold IntOp.addi IntOp.muli
  rw [show (33#32 : BitVec 32) = BitVec.ofNat 32 33 from rfl]
  simp only [← BitVec.ofNat_mul, ← BitVec.ofNat_add]
  congr 1
  ring

/-- A word below 2³¹ read as a signed number is the number itself. -/
theorem toInt_ofNat_small (n : Nat) (hn : n < 2 ^ 31) : (BitVec.ofNat 32 n).toInt = (n : ℤ) := by
  rw [BitVec.toInt_eq_toNat_cond, BitVec.toNat_ofNat]
  have hm : n % 2 ^ 32 = n := Nat.mod_eq_of_lt (by omega)
  rw [hm, if_pos (by omega)]

/-- A word below 2³¹ is not negative: the normalisation of negative positions keeps it. -/
theorem select_nonneg (n : Nat) (hn : n < 2 ^ 31) (a : BitVec 32) :
    Scalar.select (IntOp.cmpi .slt (BitVec.ofNat 32 n) 0#32) a (BitVec.ofNat 32 n) = BitVec.ofNat 32 n := by
  have hc : IntOp.cmpi .slt (BitVec.ofNat 32 n) 0#32 = 0#1 := by
    unfold IntOp.cmpi
    have : (BitVec.ofNat 32 n).slt 0#32 = false := by
      rw [BitVec.slt, toInt_ofNat_small n hn]
      simp
    simp only [this]
    rfl
  rw [hc, select_zero]

/-! ## The image's three colour planes, their cells and offsets -/

/-- The image argument, as a function of its four coordinates. -/
abbrev img (V0 : Valuation τ sig (Elt Ideal)) : Cert.Trilinear.SImage.Idx → EReal := V0 (Proc.devRef .tc main_arg2)
/-- The table argument, as a function of its four coordinates. -/
abbrev tab (V0 : Valuation τ sig (Elt Ideal)) : Cert.Trilinear.STable.Idx → EReal := V0 (Proc.devRef .tc main_arg1)

/-- A colour plane cut out of the image and viewed without its unit axis reads the image at that colour. -/
theorem plane_apply (x : S8x3x1024x1024.Idx → EReal) (o : Nat) (ho : o < 3)
    (hs : S8x3x1024x1024.Slices ![0, o, 0, 0] S8x1x1024x1024) (hc : S8x1x1024x1024.ShapeCasts S8x1024x1024)
    (b : Fin 8) (h w : Fin 1024) :
    shapeCast S8x1024x1024 (extractStridedSlice S8x1x1024x1024 ![0, o, 0, 0] x hs) hc (ix3 b h w)
      = x (ix4 b (⟨o, ho⟩ : Fin 3) h w) := by
  rw [shapeCast_apply _ hc _ (ix4 b (0 : Fin 1) h w) (by
    rw [Shape.rowMajor_val_four, Shape.rowMajor_val_three]
    show ((b.val * 1 + 0) * 1024 + h.val) * 1024 + w.val = (b.val * 1024 + h.val) * 1024 + w.val
    omega)]
  exact slice4_axis1_apply o x hs b (0 : Fin 1) h w ⟨o, ho⟩ (by simp)

theorem plane0 (V0 : Valuation τ sig (Elt Ideal)) (b : Fin 8) (h w : Fin 1024) :
    res_main_v1 V0 (ix3 b h w) = img V0 (ix4 b (0 : Fin 3) h w) :=
  plane_apply _ 0 (by omega) _ _ b h w
theorem plane1 (V0 : Valuation τ sig (Elt Ideal)) (b : Fin 8) (h w : Fin 1024) :
    res_main_v3 V0 (ix3 b h w) = img V0 (ix4 b (1 : Fin 3) h w) :=
  plane_apply _ 1 (by omega) _ _ b h w
theorem plane2 (V0 : Valuation τ sig (Elt Ideal)) (b : Fin 8) (h w : Fin 1024) :
    res_main_v5 V0 (ix3 b h w) = img V0 (ix4 b (2 : Fin 3) h w) :=
  plane_apply _ 2 (by omega) _ _ b h w

theorem cell0 (V0 : Valuation τ sig (Elt Ideal)) (b : Fin 8) (h w : Fin 1024) :
    res_main_v9 V0 (ix3 b h w) = Cert.Trilinear.cell (img V0 (ix4 b (0 : Fin 3) h w)) := by
  rw [← plane0]; rfl
theorem cell1 (V0 : Valuation τ sig (Elt Ideal)) (b : Fin 8) (h w : Fin 1024) :
    res_main_v13 V0 (ix3 b h w) = Cert.Trilinear.cell (img V0 (ix4 b (1 : Fin 3) h w)) := by
  rw [← plane1]; rfl
theorem cell2 (V0 : Valuation τ sig (Elt Ideal)) (b : Fin 8) (h w : Fin 1024) :
    res_main_v17 V0 (ix3 b h w) = Cert.Trilinear.cell (img V0 (ix4 b (2 : Fin 3) h w)) := by
  rw [← plane2]; rfl

theorem frac0 (V0 : Valuation τ sig (Elt Ideal)) (b : Fin 8) (h w : Fin 1024) :
    res_main_v21 V0 (ix3 b h w) = Cert.Trilinear.frac (img V0 (ix4 b (0 : Fin 3) h w)) := by
  rw [← plane0]; rfl
theorem frac1 (V0 : Valuation τ sig (Elt Ideal)) (b : Fin 8) (h w : Fin 1024) :
    res_main_v25 V0 (ix3 b h w) = Cert.Trilinear.frac (img V0 (ix4 b (1 : Fin 3) h w)) := by
  rw [← plane1]; rfl
theorem frac2 (V0 : Valuation τ sig (Elt Ideal)) (b : Fin 8) (h w : Fin 1024) :
    res_main_v29 V0 (ix3 b h w) = Cert.Trilinear.frac (img V0 (ix4 b (2 : Fin 3) h w)) := by
  rw [← plane2]; rfl

/-! ## The flat position of a pixel's cell -/

/-- The flat position word of a pixel: red cell + 33 · green cell + 33 · 33 · blue cell. -/
theorem flat_apply (V0 : Valuation τ sig (Elt Ideal)) (b : Fin 8) (h w : Fin 1024) :
    res_main_v37 V0 (ix3 b h w)
      = IntOp.addi (IntOp.addi (Cert.Trilinear.cell (img V0 (ix4 b (0 : Fin 3) h w)))
          (IntOp.muli (Cert.Trilinear.cell (img V0 (ix4 b (1 : Fin 3) h w))) 33#32))
          (IntOp.muli (IntOp.muli (Cert.Trilinear.cell (img V0 (ix4 b (2 : Fin 3) h w))) 33#32) 33#32) := by
  rw [← cell0, ← cell1, ← cell2]; rfl

/-- The flattened table at a position that is a corner of the cell (A, B, C): the table's entry at that corner. -/
theorem table_at {α : Type} (lut : S3x33x33x33.Idx → α) (hc : S3x33x33x33.ShapeCasts S3x35937)
    (ch : Fin 3) (q : Fin 35937) (A B C dr dg db : Nat) (hA : A ≤ 31) (hB : B ≤ 31) (hC : C ≤ 31)
    (hdr : dr ≤ 1) (hdg : dg ≤ 1) (hdb : db ≤ 1) (hq : q.val = (A + dr) + 33 * (B + dg) + 1089 * (C + db)) :
    shapeCast S3x35937 lut hc (ix2 ch q)
      = lut (ix4 ch (Cert.Trilinear.node (C + db)) (Cert.Trilinear.node (B + dg)) (Cert.Trilinear.node (A + dr))) := by
  obtain ⟨p, hp⟩ := q
  simp only at hq
  rw [table_apply lut hc ch p hp]
  have e1 : (⟨p / 1089, by omega⟩ : Fin 33) = Cert.Trilinear.node (C + db) :=
    Fin.ext (by show p / 1089 = min (C + db) 32; omega)
  have e2 : (⟨p / 33 % 33, by omega⟩ : Fin 33) = Cert.Trilinear.node (B + dg) :=
    Fin.ext (by show p / 33 % 33 = min (B + dg) 32; omega)
  have e3 : (⟨p % 33, by omega⟩ : Fin 33) = Cert.Trilinear.node (A + dr) :=
    Fin.ext (by show p % 33 = min (A + dr) 32; omega)
  rw [e1, e2, e3]

/-! ## One corner's summand -/

/-- One corner's summand at (batch, channel, row, column), for an image with every coordinate in [0, 1): the
    pixel's weight times the table's entry at the corner (`dr`, `dg`, `db` ∈ {0, 1} past the pixel's cell), when the
    corner's position buffer is the flat position plus `off = dr + 33 · dg + 1089 · db`. -/
theorem corner_value (V0 : Valuation τ sig (Elt Ideal)) (hx : Cert.Trilinear.InUnit (img V0))
    (W : FVec Ideal S8x1024x1024 .f32) (I : IVec S8x1024x1024 32) (off dr dg db : Nat)
    (hdr : dr ≤ 1) (hdg : dg ≤ 1) (hdb : db ≤ 1) (hoff : off = dr + 33 * dg + 1089 * db)
    (hI : ∀ i, I i = IntOp.addi (res_main_v37 V0 i) (BitVec.ofNat 32 off))
    (h1 : S8x1x1024x1024.BroadcastsInDim S8x3x1024x1024 (![0, 1, 2, 3] : Fin 4 → Fin S8x3x1024x1024.rank))
    (h2 : S8x1024x1024.BroadcastsInDim S8x1x1024x1024 (![0, 2, 3] : Fin 3 → Fin S8x1x1024x1024.rank))
    (h3 : S8x1024x1024.BroadcastsInDim S8x1024x1024x1 (![0, 1, 2] : Fin 3 → Fin S8x1024x1024x1.rank))
    (h4 : S_.BroadcastsInDim S8x1024x1024 (![] : Fin 0 → Fin S8x1024x1024.rank))
    (h5 : S3x8x1024x1024.Transposes [1, 0, 2, 3] S8x3x1024x1024)
    (b : Fin 8) (ch : Fin 3) (h w : Fin 1024) :
    mulf (broadcastInDim S8x3x1024x1024 ![0, 1, 2, 3] h1 (broadcastInDim S8x1x1024x1024 ![0, 2, 3] h2 W))
      (transpose S8x3x1024x1024 [1, 0, 2, 3] (Host.gather gd (res_main_v38 V0) (broadcastInDim S8x1024x1024x1 ![0, 1, 2] h3
        (select (cmpi .slt I (broadcastInDim S8x1024x1024 ![] h4 (constantI S_ 32 0#32)))
          (addi I (broadcastInDim S8x1024x1024 ![] h4 (constantI S_ 32 35937#32))) I))) h5) (ix4 b ch h w)
    = W (ix3 b h w) * tab V0 (ix4 ch
        (Cert.Trilinear.node ((Cert.Trilinear.cell (img V0 (ix4 b (2 : Fin 3) h w))).toNat + db))
        (Cert.Trilinear.node ((Cert.Trilinear.cell (img V0 (ix4 b (1 : Fin 3) h w))).toNat + dg))
        (Cert.Trilinear.node ((Cert.Trilinear.cell (img V0 (ix4 b (0 : Fin 3) h w))).toNat + dr))) := by
  rw [corner_read]
  obtain ⟨A, _, hA, hcA, _⟩ := hx.facts (ix4 b (0 : Fin 3) h w)
  obtain ⟨B, _, hB, hcB, _⟩ := hx.facts (ix4 b (1 : Fin 3) h w)
  obtain ⟨C, _, hC, hcC, _⟩ := hx.facts (ix4 b (2 : Fin 3) h w)
  have hw : I (ix3 b h w) = BitVec.ofNat 32 (A + 33 * B + 1089 * C + off) := by
    rw [hI, flat_apply, hcA, hcB, hcC, flat_word]
  have hp : min (Scalar.select (IntOp.cmpi .slt (I (ix3 b h w)) 0#32) (IntOp.addi (I (ix3 b h w)) 35937#32)
      (I (ix3 b h w))).toInt.toNat 35936 = (A + dr) + 33 * (B + dg) + 1089 * (C + db) := by
    rw [hw, select_nonneg _ (by omega), toInt_ofNat_small _ (by omega), Int.toNat_natCast]
    omega
  have tA : (BitVec.ofNat 32 A).toNat = A := by rw [BitVec.toNat_ofNat]; exact Nat.mod_eq_of_lt (by omega)
  have tB : (BitVec.ofNat 32 B).toNat = B := by rw [BitVec.toNat_ofNat]; exact Nat.mod_eq_of_lt (by omega)
  have tC : (BitVec.ofNat 32 C).toNat = C := by rw [BitVec.toNat_ofNat]; exact Nat.mod_eq_of_lt (by omega)
  rw [hcA, hcB, hcC, tA, tB, tC]
  congr 1
  exact table_at (tab V0) _ ch _ A B C dr dg db hA hB hC hdr hdg hdb hp

/-! ## The reference's result -/

/-- The constant one broadcast over the pixels reads one. -/
theorem one_apply (h4 : S_.BroadcastsInDim S8x1024x1024 (![] : Fin 0 → Fin S8x1024x1024.rank)) (i : S8x1024x1024.Idx) :
    broadcastInDim S8x1024x1024 ![] h4 (constant (F := Ideal) S_ .f32 0x3F800000#32) i = Cert.Trilinear.one := rfl

/-- THE REFERENCE'S VALUE: on an image with every coordinate in [0, 1) the reference's result is the eight-corner
    interpolation of the table, entry by entry. -/
theorem ref_eq (V0 : Valuation τ sig (Elt Ideal))
    (hx : Cert.Trilinear.InUnit (V0 (Proc.devRef .tc main_arg2))) :
    val4 V0 (Proc.devRef .tc main_v189)
      = Cert.Trilinear.G (V0 (Proc.devRef .tc main_arg1)) (V0 (Proc.devRef .tc main_arg2)) := by
  rw [val4_main_v189]
  funext i
  obtain ⟨b, ch, h, w, rfl⟩ : ∃ b ch h w, i = ix4 b ch h w := ⟨i 0, i 1, i 2, i 3, eq_ix4 i⟩
  unfold res_main_v147
  simp only [addf_apply]
  rw [corner_value V0 hx _ (res_main_v80 V0) 0 0 0 0 (by omega) (by omega) (by omega) (by omega) (fun _ => rfl),
    corner_value V0 hx _ (res_main_v93 V0) 1 1 0 0 (by omega) (by omega) (by omega) (by omega) (fun _ => rfl),
    corner_value V0 hx _ (res_main_v107 V0) 33 0 1 0 (by omega) (by omega) (by omega) (by omega) (fun _ => rfl),
    corner_value V0 hx _ (res_main_v121 V0) 34 1 1 0 (by omega) (by omega) (by omega) (by omega) (fun _ => rfl),
    corner_value V0 hx _ (res_main_v135 V0) 1089 0 0 1 (by omega) (by omega) (by omega) (by omega) (fun _ => rfl),
    corner_value V0 hx _ (res_main_v149 V0) 1090 1 0 1 (by omega) (by omega) (by omega) (by omega) (fun _ => rfl),
    corner_value V0 hx _ (res_main_v163 V0) 1122 0 1 1 (by omega) (by omega) (by omega) (by omega) (fun _ => rfl),
    corner_value V0 hx _ (res_main_v177 V0) 1123 1 1 1 (by omega) (by omega) (by omega) (by omega) (fun _ => rfl)]
  simp only [mulf_apply, subf_apply, one_apply, frac0, frac1, frac2]
  rfl

end Cert.RefValue

end
-- ==== Proof.PreFacts.lean ====
/-
  The precondition, read back as statements about the two float arrays.

  The precondition is a conjunction of four "for every entry" tests: the table's entries have absolute value
  below +∞, the image's entries have absolute value below +∞, the image's entries are at least 0, and the image's
  entries are below 1. Over the extended reals an absolute value below +∞ excludes both infinities, so the entry
  is a real number; the two comparisons with 0 and 1 then say that real number lies in [0, 1).
-/
import proofs.«131245_j52501680226537_2_alg».proof.Pre_finite_inputs
import proofs.«131245_j52501680226537_2_alg».proof.Proof.Gen.Pre_finite_inputs
import proofs.«131245_j52501680226537_2_alg».proof.Proof.Trilinear
import Idealize.ShloMosaic.Lib.ReduceAll
import Idealize.ShloMosaic.Lib.ValueIdx
import Idealize.ShloMosaic.Lib.IdealHost
import Idealize.ShloMosaic.Lib.WordArith
import Idealize.ShloMosaic.PureOps.Ideal

noncomputable section

namespace Cert.PreFacts

open Idealize.ShloMosaic Idealize.ShloMosaic.ValueIdx

/-- A shape with no axes has exactly one index. -/
instance : Subsingleton Cert.Pre_finite_inputs.S_.Idx := ⟨fun a b => funext fun d => d.elim0⟩

/-! ## The three literals -/

/-- The word with all exponent bits set and no fraction bits is +∞. -/
theorem inf_eq : Ideal.ofBits .f32 0x7F800000#32 = (⊤ : EReal) := by
  simp [Ideal.ofBits, Ideal.ieee]

/-- The all-zero word is 0. -/
theorem zero_eq : Ideal.ofBits .f32 0x00000000#32 = (0 : EReal) := by
  simp [Ideal.ofBits, Ideal.ieee]

/-- The word with biased exponent 127 and no fraction bits is 1. -/
theorem one_eq : Ideal.ofBits .f32 0x3F800000#32 = ((1 : ℝ) : EReal) := by
  simp [Ideal.ofBits, Ideal.ieee]
  norm_cast
  norm_num

/-! ## One entry -/

/-- An extended real whose absolute value max v (−v) is below +∞ is a real number: for v = −∞ the negation is +∞,
    for v = +∞ the value itself is, and in both cases the maximum is +∞. -/
theorem real_of_abs_lt {v : EReal}
    (h : Ideal.cmp .olt (max v (-v)) (Ideal.ofBits .f32 0x7F800000#32) = 1#1) : ∃ r : ℝ, v = (r : EReal) := by
  rw [inf_eq] at h
  simp only [Ideal.cmp, WordArith.ofBool_eq_one_iff, decide_eq_true_eq] at h
  induction v using EReal.rec with
  | bot => simp at h
  | top => simp at h
  | coe r => exact ⟨r, rfl⟩

/-- An extended real that passes the three tests on an image entry (absolute value below +∞, at least 0, below 1)
    is a real number in [0, 1). -/
theorem unit_of_cmps {v : EReal}
    (hfin : Ideal.cmp .olt (max v (-v)) (Ideal.ofBits .f32 0x7F800000#32) = 1#1)
    (hge : Ideal.cmp .oge v (Ideal.ofBits .f32 0x00000000#32) = 1#1)
    (hlt : Ideal.cmp .olt v (Ideal.ofBits .f32 0x3F800000#32) = 1#1) :
    ∃ r : ℝ, v = (r : EReal) ∧ 0 ≤ r ∧ r < 1 := by
  obtain ⟨r, rfl⟩ := real_of_abs_lt hfin
  rw [zero_eq] at hge
  rw [one_eq] at hlt
  simp only [Ideal.cmp, WordArith.ofBool_eq_one_iff, decide_eq_true_eq] at hge hlt
  exact ⟨r, rfl, by exact_mod_cast hge, by exact_mod_cast hlt⟩

/-! ## The whole arrays -/

/-- If the precondition holds of the argument arrays then every entry of the table is a real number and every
    entry of the image is a real number in [0, 1). The conjunction of the four tests being true makes each test
    true; a "for every entry" test being true makes the comparison true at each index; the comparison at an index
    is the comparison of that entry with the literal. -/
theorem decode [Cert.Pre_finite_inputs.Facts] (a0 : IVec Cert.Pre_finite_inputs.S3x33x33x33 32)
    (lut : FVec Ideal Cert.Pre_finite_inputs.S3x33x33x33 .f32) (x : FVec Ideal Cert.Pre_finite_inputs.S8x3x1024x1024 .f32)
    (h : Cert.Pre_finite_inputs.fn (F := Ideal) a0 lut x = (fun _ => 1#1)) :
    Cert.Trilinear.Finite lut ∧ Cert.Trilinear.InUnit x := by
  have h0 := congrFun h ix0
  dsimp only [Cert.Pre_finite_inputs.fn, Cert.Pre_finite_inputs.fn_part1] at h0
  have hs : ∀ (p q : IVec Cert.Pre_finite_inputs.S_ 1), andi p q ix0 = IntOp.andi (p ix0) (q ix0) := fun _ _ => rfl
  rw [hs, hs, hs, IntOp.andi_eq_one, IntOp.andi_eq_one, IntOp.andi_eq_one] at h0
  obtain ⟨⟨⟨h1, h2⟩, h3⟩, h4⟩ := h0
  refine ⟨fun i => ?_, fun i => ?_⟩
  · have e1 := Host.reduce_andi_all _ _ _ _ _ h1 i
    rw [cmpf_apply, broadcastInDim_scalar_apply, constant_apply] at e1
    exact real_of_abs_lt e1
  · have e2 := Host.reduce_andi_all _ _ _ _ _ h2 i
    have e3 := Host.reduce_andi_all _ _ _ _ _ h3 i
    have e4 := Host.reduce_andi_all _ _ _ _ _ h4 i
    rw [cmpf_apply, broadcastInDim_scalar_apply, constant_apply] at e2 e3 e4
    exact unit_of_cmps e2 e3 e4

end Cert.PreFacts

end
-- ==== Proof.lean ====
/-
  Trilinear interpolation of an image in a 33 × 33 × 33 colour table: a kernel that contracts soft one-hot
  weights against the table on the matrix unit, against a reference that gathers the eight corners of each
  pixel's cell.

  For an image with every coordinate in [0, 1) and a table of finite entries, both programs leave, for every
  pixel and channel, the eight-corner sum of the table's entries around the pixel, weighted by products of
  the three offsets and their complements. The reference computes it corner by corner: it forms the flat
  index of the cell, adds the corner's displacement, gathers the three channels there and multiplies by the
  corner's weight. The kernel computes, per colour coordinate, a vector of 33 weights that vanish away from
  the cell's two nodes, multiplies the blue and green vectors pairwise, contracts the 1089 products against
  the table re-laid as 1089 rows by 99 columns, multiplies by the red weights and sums over red. The weights
  vanish off the eight corners, so the triple sum has eight terms, and over the real numbers the distributive
  law makes it the eight-corner sum; finiteness of the table and of the image is what allows the passage to
  the reals, and the range [0, 1) is what keeps every cell among 0 … 31, so that both nodes of every cell are
  table coordinates and the reference's flat indices stay inside the table.

  The kernel's frame and the reference's run are the generated ones; the value of the kernel's output block
  (Payload), its passage from blocks to the whole array (Blocks), the identification with the eight-corner
  sum (Corners, Bridge), the reference's value (RefValue) and the decoding of the precondition (PreFacts) are
  the parts assembled here.
-/
import proofs.«131245_j52501680226537_2_alg».proof.Defs
import proofs.«131245_j52501680226537_2_alg».proof.Proof.Gen.Kernel
import proofs.«131245_j52501680226537_2_alg».proof.Proof.Gen.Kernel.Skeleton
import proofs.«131245_j52501680226537_2_alg».proof.Proof.Gen.Kernel.Launch
import proofs.«131245_j52501680226537_2_alg».proof.Proof.Gen.Kernel.Points
import proofs.«131245_j52501680226537_2_alg».proof.Proof.Gen.Kernel.Frame
import proofs.«131245_j52501680226537_2_alg».proof.Proof.Gen.KernelIdeal
import proofs.«131245_j52501680226537_2_alg».proof.Proof.Gen.KernelIdeal.Skeleton
import proofs.«131245_j52501680226537_2_alg».proof.Proof.Gen.KernelIdeal.Launch
import proofs.«131245_j52501680226537_2_alg».proof.Proof.Gen.KernelIdeal.Points
import proofs.«131245_j52501680226537_2_alg».proof.Proof.Gen.KernelIdeal.Frame
import proofs.«131245_j52501680226537_2_alg».proof.Proof.Gen.KernelIdeal.Value
import proofs.«131245_j52501680226537_2_alg».proof.Proof.Gen.ReferenceIdeal.Run
import proofs.«131245_j52501680226537_2_alg».proof.Proof.Gen.ReferenceIdeal
import proofs.«131245_j52501680226537_2_alg».proof.Proof.Gen.Pre_finite_inputs
import proofs.«131245_j52501680226537_2_alg».proof.Proof.Payload
import proofs.«131245_j52501680226537_2_alg».proof.Proof.Blocks
import proofs.«131245_j52501680226537_2_alg».proof.Proof.Bridge
import proofs.«131245_j52501680226537_2_alg».proof.Proof.RefValue
import proofs.«131245_j52501680226537_2_alg».proof.Proof.PreFacts
import Idealize.ShloMosaic.Adequacy
import Idealize.ShloMosaic.Init

noncomputable section

namespace Cert.Proof

open Idealize.ShloMosaic Idealize.ShloMosaic.TcCoe Idealize.SL.Sem

/-- The kernel as printed runs and keeps its arguments: the generated frame. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and keeps its arguments: its generated run with the result forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the arguments, with a finite table and an image in [0, 1), both idealized programs
    end with the table unchanged and the image interpolated: the eight-corner sum at every pixel and channel. -/
theorem algebraic : Cert.algebraic_KernelIdeal_ReferenceIdeal := by
  intro m ρ m' ρ' hpre hagree
  have hfacts : ∀ c : Dev Cert.KernelIdeal.nD,
      Cert.Trilinear.Finite (m ((c.tc : Thread Cert.KernelIdeal.nD Cert.KernelIdeal.τ).loc Cert.KernelIdeal.main_arg1))
      ∧ Cert.Trilinear.InUnit (m ((c.tc : Thread Cert.KernelIdeal.nD Cert.KernelIdeal.τ).loc Cert.KernelIdeal.main_arg2)) :=
    fun c => Cert.PreFacts.decode _ _ _ (hpre c)
  refine ⟨fun c => m ((c.tc : Thread Cert.KernelIdeal.nD Cert.KernelIdeal.τ).loc Cert.KernelIdeal.main_arg1),
    fun c => Cert.Trilinear.G (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ?_) (Cert.Blocks.run m ρ Cert.Payload.out_eq)
    obtain ⟨h3, h0, h1, h2⟩ := h c
    exact ⟨h1, h3.trans (Cert.Bridge.array_eq m c (hfacts c).1 (hfacts c).2), h0, h1, h2⟩
  · refine (θ_run Cert.ReferenceIdeal.defs _ _).mono (fun r h c => ?_) (Cert.ReferenceIdeal.Value.run (F := Ideal) m' ρ')
    obtain ⟨_, hv, h0, h1, h2⟩ := h c
    have hx' : Cert.Trilinear.InUnit (StableHlo.launchContents m' c (Proc.devRef .tc Cert.ReferenceIdeal.main_arg2)) := by
      show Cert.Trilinear.InUnit (m' ((c.tc : Thread Cert.ReferenceIdeal.nD Cert.ReferenceIdeal.τ).loc Cert.ReferenceIdeal.main_arg2))
      rw [(hagree c).2.2]
      exact (hfacts c).2
    refine ⟨h1.trans (hagree c).2.1, ?_, h0, h1, h2⟩
    refine hv.trans ((Cert.ReferenceIdeal.Value.val4_main_v189 (StableHlo.launchContents m' c)).symm.trans
      ((Cert.RefValue.ref_eq (StableHlo.launchContents m' c) hx').trans ?_))
    show Cert.Trilinear.G (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = _
    rw [(hagree c).2.1, (hagree c).2.2]

/-- The five claims, under the programs' stated facts. -/
theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
